-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_arg4 : FVec F S128x128 .f32) (main_arg5 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg4
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg5
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : FVec F S10000x128 .f32) (main_arg1 : FVec F S10000x10000 .f32) (main_arg2 : FVec F S128x128 .f32) (main_arg3 : FVec F S128 .f32) (main_arg4 : FVec F S128x128 .f32) (main_arg5 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg4 main_arg5 main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S2000x128 : Shape := ⟨2, ![2000, 128]⟩
abbrev S400x10000 : Shape := ⟨2, ![400, 10000]⟩
abbrev S400x128 : Shape := ⟨2, ![400, 128]⟩
abbrev S400 : Shape := ⟨1, ![400]⟩
abbrev S400x1 : Shape := ⟨2, ![400, 1]⟩

abbrev nBuf : Space → Nat
  | .hbm => 11
  | .vmem => 18
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S1x128, .f32⟩
  | .hbm, ⟨7, _⟩ => ⟨S1x128, .f32⟩
  | .hbm, ⟨8, _⟩ => ⟨S10000x128, .f32⟩
  | .hbm, ⟨9, _⟩ => ⟨S10000x128, .f32⟩
  | .hbm, ⟨10, _⟩ => ⟨S10000x128, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S1x128, .f32⟩
  | .local _ .vmem, ⟨4, _⟩ => ⟨S2000x128, .f32⟩
  | .local _ .vmem, ⟨5, _⟩ => ⟨S2000x128, .f32⟩
  | .local _ .vmem, ⟨6, _⟩ => ⟨S400x10000, .f32⟩
  | .local _ .vmem, ⟨7, _⟩ => ⟨S400x10000, .f32⟩
  | .local _ .vmem, ⟨8, _⟩ => ⟨S10000x128, .f32⟩
  | .local _ .vmem, ⟨9, _⟩ => ⟨S128x128, .f32⟩
  | .local _ .vmem, ⟨10, _⟩ => ⟨S1x128, .f32⟩
  | .local _ .vmem, ⟨11, _⟩ => ⟨S400x128, .f32⟩
  | .local _ .vmem, ⟨12, _⟩ => ⟨S400x128, .f32⟩
  | .local _ .vmem, ⟨13, _⟩ => ⟨S400x10000, .f32⟩
  | .local _ .vmem, ⟨14, _⟩ => ⟨S400x10000, .f32⟩
  | .local _ .vmem, ⟨15, _⟩ => ⟨S10000x128, .f32⟩
  | .local _ .vmem, ⟨16, _⟩ => ⟨S400x128, .f32⟩
  | .local _ .vmem, ⟨17, _⟩ => ⟨S400x128, .f32⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg4_0 : Ref sig .tc := ⟨.vmem, 11, rfl⟩
abbrev cc1_stg4_1 : Ref sig .tc := ⟨.vmem, 12, rfl⟩
abbrev cc2_stg0_0 : Ref sig .tc := ⟨.vmem, 13, rfl⟩
abbrev cc2_stg0_1 : Ref sig .tc := ⟨.vmem, 14, rfl⟩
abbrev cc2_stg1_0 : Ref sig .tc := ⟨.vmem, 15, rfl⟩
abbrev cc2_stg2_0 : Ref sig .tc := ⟨.vmem, 16, rfl⟩
abbrev cc2_stg2_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem4_0 : DmaSem sig := 11
abbrev cc1_sem4_1 : DmaSem sig := 12
abbrev cc2_sem0_0 : DmaSem sig := 13
abbrev cc2_sem0_1 : DmaSem sig := 14
abbrev cc2_sem1_0 : DmaSem sig := 15
abbrev cc2_sem2_0 : DmaSem sig := 16
abbrev cc2_sem2_1 : DmaSem sig := 17

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S400x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S400x10000_S400x10000_0_0 : ∀ a, (![0, 0] : Fin 2 → Nat) a + S400x10000.size a ≤ S400x10000.size a
  h_S400x10000 : 0 < S400x10000.numel
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  broadcasts_S1x128_S400x128 : S1x128.Broadcasts S400x128
  inb_S400x128_S400x128_0_0 : ∀ a, (![0, 0] : Fin 2 → Nat) a + S400x128.size a ≤ S400x128.size a
  h_S400x128 : 0 < S400x128.numel
  reduces_S400x128_S400 : S400x128.Reduces [1] S400
  shapeCasts_S400_S400x1 : S400.ShapeCasts S400x1
  broadcasts_S400x1_S400x128 : S400x1.Broadcasts S400x128
  dot_S2000x128_S128x128_S2000x128_1_1_0_0_n_n_wf : DotDims.WF S2000x128 S128x128 S2000x128 [1] [1] [0] [0] [] []
  dot_S400x10000_S10000x128_S400x128_1_0_0_1_n_n_wf : DotDims.WF S400x10000 S10000x128 S400x128 [1] [0] [0] [1] [] []
  dot_S400x128_S128x128_S400x128_1_1_0_0_n_n_wf : DotDims.WF S400x128 S128x128 S400x128 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S10000x128.size a
  hwx0_0 : ∀ i : grid0.Coords, EltTy.bits .f32 = 32 ∨ (Rect.block (s := S10000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x128.size a
  hwx0_2 : ∀ i : grid0.Coords, EltTy.bits .f32 = 32 ∨ (Rect.block (s := S1x128) S1x128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S10000x128.size a
  hwx0_3 : ∀ i : grid0.Coords, EltTy.bits .f32 = 32 ∨ (Rect.block (s := S10000x128) S2000x128.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x128.size a ≤ S10000x128.size a
  hwx1_1 : ∀ i : grid1.Coords, EltTy.bits .f32 = 32 ∨ (Rect.block (s := S10000x128) S10000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S400x128.size a ≤ S10000x128.size a
  hwx1_4 : ∀ i : grid1.Coords, EltTy.bits .f32 = 32 ∨ (Rect.block (s := S10000x128) S400x128.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x128.size a ≤ S10000x128.size a
  hwx2_1 : ∀ i : grid2.Coords, EltTy.bits .f32 = 32 ∨ (Rect.block (s := S10000x128) S10000x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x128.size a ≤ S10000x128.size a
  hwx2_2 : ∀ i : grid2.Coords, EltTy.bits .f32 = 32 ∨ (Rect.block (s := S10000x128) S400x128.size (cc2_transform_2 i) (hinb2_2 i)).WholeWords (EltTy.packing .f32)

variable [Facts₀]

def dot_S2000x128_S128x128_S2000x128_1_1_0_0_n_n : DotDims S2000x128 S128x128 S2000x128 where
  lhsContracting := [1]
  rhsContracting := [1]
  lhsNonContracting := [0]
  rhsNonContracting := [0]
  lhsBatch := []
  rhsBatch := []
  wf := dot_S2000x128_S128x128_S2000x128_1_1_0_0_n_n_wf
def dot_S400x10000_S10000x128_S400x128_1_0_0_1_n_n : DotDims S400x10000 S10000x128 S400x128 where
  lhsContracting := [1]
  rhsContracting := [0]
  lhsNonContracting := [0]
  rhsNonContracting := [1]
  lhsBatch := []
  rhsBatch := []
  wf := dot_S400x10000_S10000x128_S400x128_1_0_0_1_n_n_wf
def dot_S400x128_S128x128_S400x128_1_1_0_0_n_n : DotDims S400x128 S128x128 S400x128 where
  lhsContracting := [1]
  rhsContracting := [1]
  lhsNonContracting := [0]
  rhsNonContracting := [0]
  lhsBatch := []
  rhsBatch := []
  wf := dot_S400x128_S128x128_S400x128_1_1_0_0_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v2) S10000x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg4) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v3) S400x128.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_arg1) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v3) S10000x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S400x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩
abbrev S10000 : Shape := ⟨1, ![10000]⟩
abbrev S10000x1 : Shape := ⟨2, ![10000, 1]⟩

abbrev nBuf : Space → Nat
  | .hbm => 36
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S128x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S10000x128, .f32⟩
  | .hbm, ⟨12, _⟩ => ⟨S_, .f32⟩
  | .hbm, ⟨13, _⟩ => ⟨S10000x128, .f32⟩
  | .hbm, ⟨14, _⟩ => ⟨S10000x128, .f32⟩
  | .hbm, ⟨15, _⟩ => ⟨S128x128, .f32⟩
  | .hbm, ⟨16, _⟩ => ⟨S10000x128, .f32⟩
  | .hbm, ⟨17, _⟩ => ⟨S1x128, .f32⟩
  | .hbm, ⟨18, _⟩ => ⟨S10000x128, .f32⟩
  | .hbm, ⟨19, _⟩ => ⟨S10000x128, .f32⟩
  | .hbm, ⟨20, _⟩ => ⟨S10000x128, .f32⟩
  | .hbm, ⟨21, _⟩ => ⟨S_, .f32⟩
  | .hbm, ⟨22, _⟩ => ⟨S10000, .f32⟩
  | .hbm, ⟨23, _⟩ => ⟨S_, .f32⟩
  | .hbm, ⟨24, _⟩ => ⟨S10000, .f32⟩
  | .hbm, ⟨25, _⟩ => ⟨S10000, .f32⟩
  | .hbm, ⟨26, _⟩ => ⟨S10000x1, .f32⟩
  | .hbm, ⟨27, _⟩ => ⟨S10000x128, .f32⟩
  | .hbm, ⟨28, _⟩ => ⟨S10000x128, .f32⟩
  | .hbm, ⟨29, _⟩ => ⟨S10000x128, .f32⟩
  | .hbm, ⟨30, _⟩ => ⟨S_, .f32⟩
  | .hbm, ⟨31, _⟩ => ⟨S10000, .f32⟩
  | .hbm, ⟨32, _⟩ => ⟨S10000x1, .f32⟩
  | .hbm, ⟨33, _⟩ => ⟨S10000x1, .f32⟩
  | .hbm, ⟨34, _⟩ => ⟨S10000x128, .f32⟩
  | .hbm, ⟨35, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_call0_cst : Ref sig .tc := ⟨.hbm, 12, rfl⟩
abbrev main_call0_v0 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_call1_cst : Ref sig .tc := ⟨.hbm, 21, rfl⟩
abbrev main_call1_v0 : Ref sig .tc := ⟨.hbm, 22, rfl⟩
abbrev main_call1_cst_0 : Ref sig .tc := ⟨.hbm, 23, rfl⟩
abbrev main_call1_v1 : Ref sig .tc := ⟨.hbm, 24, rfl⟩
abbrev main_call1_v2 : Ref sig .tc := ⟨.hbm, 25, rfl⟩
abbrev main_call1_v3 : Ref sig .tc := ⟨.hbm, 26, rfl⟩
abbrev main_call1_v4 : Ref sig .tc := ⟨.hbm, 27, rfl⟩
abbrev main_call1_v5 : Ref sig .tc := ⟨.hbm, 28, rfl⟩
abbrev main_call1_v6 : Ref sig .tc := ⟨.hbm, 29, rfl⟩
abbrev main_call1_cst_1 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_v13 : Ref sig .tc := ⟨.hbm, 35, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  bcast_S_S10000x128 : S_.BroadcastsInDim S10000x128 (![] : Fin 0 → Fin S10000x128.rank)
  reducesTo_S10000x128_S10000_d1 : S10000x128.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  dot_S10000x128_S128x128_S10000x128_1_0_0_1_n_n_wf : DotDims.WF S10000x128 S128x128 S10000x128 [1] [0] [0] [1] [] []
  dot_S10000x10000_S10000x128_S10000x128_1_0_0_1_n_n_wf : DotDims.WF S10000x10000 S10000x128 S10000x128 [1] [0] [0] [1] [] []

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf

class Facts : Prop extends Facts₀ where

variable [Facts]
-- ==== Proof.GcnSpec.lean ====
/-
  The function both programs compute, on the extended reals, one entry at a time.

  A two-layer graph convolution over a dense adjacency matrix `A` (10000 × 10000) and node features `x`
  (10000 × 128):

      out = logSoftmax ( A · ( relu ( A · (x W₁ᵀ + b₁) ) W₂ᵀ + b₂ ) ),   the log-softmax taken along each row.

  Every stage is ROW-LOCAL in its left operand: row `r` of `x Wᵀ + b` depends on row `r` of `x` only, row `r` of
  `A · h` on row `r` of `A` (and on all of `h`), and a row of the log-softmax on that row. So the stages are stated for
  a matrix of ANY number of rows `R`, as functions of a row and a column: at `R = 10000` they are the whole arrays, at
  `R = 2000` or `400` they are what one grid point computes from its block of rows, and a block's row `p` is the
  whole array's row `t · R + p` by the congruence lemmas at the end (a stage's value at a row changes only with that row
  of its left operand).

  The float words are left as words: `zeroW` is the word of `0.0` and `negInfW` the word of `-inf`, the same on both
  sides, so neither is evaluated except where a law needs its value (`0 + s = s`, `max (-inf) s = s`).
-/
import Idealize.ShloMosaic.PureOps.Ideal
import Idealize.ShloMosaic.PureOps.Ideal.Laws
import Idealize.ShloMosaic.Lib.ValueIdx

noncomputable section

open scoped BigOperators

namespace Cert.Gcn

open Idealize.ShloMosaic Idealize.ShloMosaic.ValueIdx

/-- The node-feature arrays, the adjacency matrix, a weight matrix. -/
abbrev Feat : Shape := ⟨2, ![10000, 128]⟩
abbrev AdjS : Shape := ⟨2, ![10000, 10000]⟩
abbrev Wgt : Shape := ⟨2, ![128, 128]⟩

/-- The float word of `0.0` and of `-inf`, read as extended reals. -/
abbrev zeroW : EReal := Ideal.ofBits .f32 0x00000000#32
abbrev negInfW : EReal := Ideal.ofBits .f32 0xFF800000#32

theorem zeroW_eq : zeroW = 0 := Ideal.ofBits_zero_f32

/-- The word `0xFF800000` is the bottom of the extended reals. -/
theorem negInfW_eq : negInfW = ⊥ := by simp [Ideal.ofBits, Ideal.ieee]

variable {R : Nat}

/-- A linear layer `x Wᵀ + b` at row `r`, column `c`: the row of `x` against ROW `c` of `W`, plus the bias. -/
def linAt (x : Fin R → Fin 128 → EReal) (W : Wgt.Idx → EReal) (b : Fin 128 → EReal) (r : Fin R) (c : Fin 128) : EReal :=
  (∑ k : Fin 128, x r k * W (ix2 c k)) + b c

/-- The aggregation `A · h` at row `r`, column `c`: row `r` of `A` against column `c` of `h`. -/
def aggAt (A : Fin R → Fin 10000 → EReal) (h : Fin 10000 → Fin 128 → EReal) (r : Fin R) (c : Fin 128) : EReal :=
  ∑ l : Fin 10000, A r l * h l c

/-- `relu`, entry by entry: the maximum with the word of zero. -/
def reluAt (h : Fin R → Fin 128 → EReal) (r : Fin R) (c : Fin 128) : EReal := max (h r c) zeroW

/-- A row's maximum: the fold of `max` from the word of `-inf` over the row's 128 entries. -/
def rowMax (z : Fin R → Fin 128 → EReal) (r : Fin R) : EReal :=
  (Finset.univ : Finset (Fin 128)).fold max negInfW (fun j => z r j)

/-- The row log-softmax in its shifted form: `s = z − max`, then `s − log Σ exp s`. -/
def logSoftmaxAt (z : Fin R → Fin 128 → EReal) (r : Fin R) (c : Fin 128) : EReal :=
  (z r c - rowMax z r) - Ideal.log (∑ j : Fin 128, Ideal.exp (z r j - rowMax z r))

/-- The second layer's input from the first layer's output: aggregate, `relu`, linear. -/
def hiddenAt (A : Fin R → Fin 10000 → EReal) (h : Fin 10000 → Fin 128 → EReal) (W : Wgt.Idx → EReal) (b : Fin 128 → EReal) :
    Fin R → Fin 128 → EReal :=
  linAt (reluAt (aggAt A h)) W b

/-- The last stage from the second layer's input: aggregate, row log-softmax. -/
def outAt (A : Fin R → Fin 10000 → EReal) (g : Fin 10000 → Fin 128 → EReal) : Fin R → Fin 128 → EReal :=
  logSoftmaxAt (aggAt A g)

/-- The whole network. -/
def gcn (x : Fin 10000 → Fin 128 → EReal) (A : Fin 10000 → Fin 10000 → EReal) (W1 : Wgt.Idx → EReal) (b1 : Fin 128 → EReal)
    (W2 : Wgt.Idx → EReal) (b2 : Fin 128 → EReal) : Fin 10000 → Fin 128 → EReal :=
  outAt A (hiddenAt A (linAt x W1 b1) W2 b2)

/-- A matrix of 10000 × 128 entries given by row and column, as an array. -/
def toArr (f : Fin 10000 → Fin 128 → EReal) : Feat.Idx → EReal := fun i => f (i 0) (i 1)

theorem toArr_ix2 (f : Fin 10000 → Fin 128 → EReal) (r : Fin 10000) (c : Fin 128) : toArr f (ix2 r c) = f r c := rfl

/-! ## A stage at a row changes only with that row of its left operand -/

theorem linAt_congr {R' : Nat} (x : Fin R → Fin 128 → EReal) (x' : Fin R' → Fin 128 → EReal) (W : Wgt.Idx → EReal) (b : Fin 128 → EReal)
    (r : Fin R) (r' : Fin R') (h : ∀ k, x r k = x' r' k) (c : Fin 128) : linAt x W b r c = linAt x' W b r' c := by
  unfold linAt
  exact congrArg (· + b c) (Finset.sum_congr rfl fun k _ => by rw [h k])

theorem aggAt_congr {R' : Nat} (A : Fin R → Fin 10000 → EReal) (A' : Fin R' → Fin 10000 → EReal) (g : Fin 10000 → Fin 128 → EReal)
    (r : Fin R) (r' : Fin R') (h : ∀ l, A r l = A' r' l) (c : Fin 128) : aggAt A g r c = aggAt A' g r' c := by
  unfold aggAt
  exact Finset.sum_congr rfl fun l _ => by rw [h l]

theorem reluAt_congr {R' : Nat} (z : Fin R → Fin 128 → EReal) (z' : Fin R' → Fin 128 → EReal) (r : Fin R) (r' : Fin R')
    (h : ∀ c, z r c = z' r' c) (c : Fin 128) : reluAt z r c = reluAt z' r' c := by
  unfold reluAt; rw [h c]

theorem rowMax_congr {R' : Nat} (z : Fin R → Fin 128 → EReal) (z' : Fin R' → Fin 128 → EReal) (r : Fin R) (r' : Fin R')
    (h : ∀ c, z r c = z' r' c) : rowMax z r = rowMax z' r' := by
  unfold rowMax
  exact congrArg (fun f : Fin 128 → EReal => (Finset.univ : Finset (Fin 128)).fold max negInfW f) (funext fun j => h j)

theorem logSoftmaxAt_congr {R' : Nat} (z : Fin R → Fin 128 → EReal) (z' : Fin R' → Fin 128 → EReal) (r : Fin R) (r' : Fin R')
    (h : ∀ c, z r c = z' r' c) (c : Fin 128) : logSoftmaxAt z r c = logSoftmaxAt z' r' c := by
  unfold logSoftmaxAt
  rw [rowMax_congr z z' r r' h, h c]
  exact congrArg (fun s => z' r' c - rowMax z' r' - Ideal.log s) (Finset.sum_congr rfl fun j _ => by rw [h j])

theorem hiddenAt_congr {R' : Nat} (A : Fin R → Fin 10000 → EReal) (A' : Fin R' → Fin 10000 → EReal) (g : Fin 10000 → Fin 128 → EReal)
    (W : Wgt.Idx → EReal) (b : Fin 128 → EReal) (r : Fin R) (r' : Fin R') (h : ∀ l, A r l = A' r' l) (c : Fin 128) :
    hiddenAt A g W b r c = hiddenAt A' g W b r' c :=
  linAt_congr _ _ W b r r' (fun k => reluAt_congr _ _ r r' (fun c' => aggAt_congr A A' g r r' h c') k) c

theorem outAt_congr {R' : Nat} (A : Fin R → Fin 10000 → EReal) (A' : Fin R' → Fin 10000 → EReal) (g : Fin 10000 → Fin 128 → EReal)
    (r : Fin R) (r' : Fin R') (h : ∀ l, A r l = A' r' l) (c : Fin 128) : outAt A g r c = outAt A' g r' c :=
  logSoftmaxAt_congr _ _ r r' (fun c' => aggAt_congr A A' g r r' h c') c

end Cert.Gcn

end
-- ==== Proof.LibUnitColumn.lean ====
/-
  A vector cast to a column, read at an index: an `[a]` array cast to `[a, 1]` reads, at `(i, u)`, the vector's
  entry `i`, whatever the unit coordinate `u`.
-/
import Idealize.ShloMosaic.Lib.Pipeline.Value
import Idealize.ShloMosaic.Lib.ValueIdx

namespace Cert.LibUnitColumn

open Idealize.ShloMosaic Idealize.ShloMosaic.ValueIdx

variable {α : Type}

/-- An `[a]` array cast to `[a, 1]` reads, at `(i, u)`, the operand at `i`: both indices have the row-major
    position `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.LibUnitColumn
-- ==== Proof.LibColumn.lean ====
/-
  A column broadcast over many columns, read at an index: an `[a, 1]` array broadcast to `[a, b]` reads, at
  `(p, c)`, the column's entry of row `p`.
-/
import Idealize.ShloMosaic.Lib.Pipeline.Value
import Idealize.ShloMosaic.Lib.ValueIdx

namespace Cert.LibColumn

open Idealize.ShloMosaic Idealize.ShloMosaic.ValueIdx

variable {α : Type}

/-- An `[a, 1]` array broadcast to `[a, b]` reads, at `(p, c)`, the operand at `(p, 0)`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Blocks.lean ====
/-
  What each of the three kernel bodies stores, read at one entry of its block, at the ideal values.

  Each body multiplies whole blocks on the matrix unit into a zero accumulator, so an entry of a product is a plain sum
  over the one contracted axis. The two weight products contract the SECOND axis of both operands (`a · wᵀ`: row `p`
  of the left block against row `q` of the weights); the aggregation contracts the block's columns against the rows of
  the resident feature matrix. The bias is a `1 × 128` row broadcast down the block's rows. The last body takes a
  row's maximum and the row's sum of exponentials with the vector unit's lane reductions, each carried to the block's
  columns as a column cast from the reduced vector. Read at row `p`, column `q`, every body is the corresponding stage
  of `Cert.Gcn` at the block's rows.
-/
import proofs.«150236_g50663434224293_cont_8to1_c_478_4_alg».proof.Proof.Gen.KernelIdeal.Skeleton
import proofs.«150236_g50663434224293_cont_8to1_c_478_4_alg».proof.Proof.GcnSpec
import proofs.«150236_g50663434224293_cont_8to1_c_478_4_alg».proof.Proof.LibUnitColumn
import proofs.«150236_g50663434224293_cont_8to1_c_478_4_alg».proof.Proof.LibColumn
import Idealize.ShloMosaic.Lib.Pipeline.Value
import Idealize.ShloMosaic.Lib.ValueIdx
import Idealize.ShloMosaic.PureOps.Ideal.Laws

noncomputable section

open scoped BigOperators

namespace Cert.KernelIdeal.Blocks

open Cert.KernelIdeal Cert.KernelIdeal.Gen Idealize.ShloMosaic Idealize.ShloMosaic.ValueIdx Cert.Gcn

/-! ## The three products at an entry -/

theorem dl_lhs0 (i : S2000x128.Idx) (q : dot_S2000x128_S128x128_S2000x128_1_1_0_0_n_n.contr.Idx) : (dot_S2000x128_S128x128_S2000x128_1_1_0_0_n_n.lhsIdx i q 0).val = (i 0).val := by
  unfold DotDims.lhsIdx
  rw [dif_neg (show ¬(0 : Fin S2000x128.rank) ∈ dot_S2000x128_S128x128_S2000x128_1_1_0_0_n_n.lhsBatch by decide), dif_pos (show (0 : Fin S2000x128.rank) ∈ dot_S2000x128_S128x128_S2000x128_1_1_0_0_n_n.lhsNonContracting by decide)]
  rfl
theorem dl_rhs0 (i : S2000x128.Idx) (q : dot_S2000x128_S128x128_S2000x128_1_1_0_0_n_n.contr.Idx) : (dot_S2000x128_S128x128_S2000x128_1_1_0_0_n_n.rhsIdx i q 0).val = (i 1).val := by
  unfold DotDims.rhsIdx
  rw [dif_neg (show ¬(0 : Fin S128x128.rank) ∈ dot_S2000x128_S128x128_S2000x128_1_1_0_0_n_n.rhsBatch by decide), dif_pos (show (0 : Fin S128x128.rank) ∈ dot_S2000x128_S128x128_S2000x128_1_1_0_0_n_n.rhsNonContracting by decide)]
  rfl

/-- The first layer's product `a · wᵀ` at `(p, q)`: row `p` of the block against row `q` of the weights. -/
theorem dl_apply (a : FVec Ideal S2000x128 .f32) (w : FVec Ideal S128x128 .f32) (p : Fin 2000) (q : Fin 128) :
    matmul dot_S2000x128_S128x128_S2000x128_1_1_0_0_n_n none a w (constant S2000x128 .f32 0x00000000#32) (ix2 p q)
      = ∑ k : Fin 128, a (ix2 p k) * w (ix2 q k) := by
  simp only [matmul]
  rw [Ideal.matmul_constant_zero_apply, ← Equiv.sum_comp (contrEquiv1 dot_S2000x128_S128x128_S2000x128_1_1_0_0_n_n 128 rfl rfl).symm]
  refine Finset.sum_congr rfl fun k _ => ?_
  have hk := contrEquiv1_symm_val dot_S2000x128_S128x128_S2000x128_1_1_0_0_n_n 128 rfl rfl k
  have el : dot_S2000x128_S128x128_S2000x128_1_1_0_0_n_n.lhsIdx (ix2 p q) ((contrEquiv1 dot_S2000x128_S128x128_S2000x128_1_1_0_0_n_n 128 rfl rfl).symm k) = ix2 p k := funext fun ax => Fin.ext (by
    match ax with
    | ⟨0, _⟩ => exact dl_lhs0 _ _
    | ⟨1, _⟩ => exact (dot_S2000x128_S128x128_S2000x128_1_1_0_0_n_n.lhsIdx_val_of_single rfl _ _).trans hk)
  have er : dot_S2000x128_S128x128_S2000x128_1_1_0_0_n_n.rhsIdx (ix2 p q) ((contrEquiv1 dot_S2000x128_S128x128_S2000x128_1_1_0_0_n_n 128 rfl rfl).symm k) = ix2 q k := funext fun ax => Fin.ext (by
    match ax with
    | ⟨0, _⟩ => exact dl_rhs0 _ _
    | ⟨1, _⟩ => exact (dot_S2000x128_S128x128_S2000x128_1_1_0_0_n_n.rhsIdx_val_of_single rfl _ _).trans hk)
  rw [el, er]

theorem dh_lhs0 (i : S400x128.Idx) (q : dot_S400x128_S128x128_S400x128_1_1_0_0_n_n.contr.Idx) : (dot_S400x128_S128x128_S400x128_1_1_0_0_n_n.lhsIdx i q 0).val = (i 0).val := by
  unfold DotDims.lhsIdx
  rw [dif_neg (show ¬(0 : Fin S400x128.rank) ∈ dot_S400x128_S128x128_S400x128_1_1_0_0_n_n.lhsBatch by decide), dif_pos (show (0 : Fin S400x128.rank) ∈ dot_S400x128_S128x128_S400x128_1_1_0_0_n_n.lhsNonContracting by decide)]
  rfl
theorem dh_rhs0 (i : S400x128.Idx) (q : dot_S400x128_S128x128_S400x128_1_1_0_0_n_n.contr.Idx) : (dot_S400x128_S128x128_S400x128_1_1_0_0_n_n.rhsIdx i q 0).val = (i 1).val := by
  unfold DotDims.rhsIdx
  rw [dif_neg (show ¬(0 : Fin S128x128.rank) ∈ dot_S400x128_S128x128_S400x128_1_1_0_0_n_n.rhsBatch by decide), dif_pos (show (0 : Fin S128x128.rank) ∈ dot_S400x128_S128x128_S400x128_1_1_0_0_n_n.rhsNonContracting by decide)]
  rfl

/-- The second layer's product `a · wᵀ` at `(p, q)`. -/
theorem dh_apply (a : FVec Ideal S400x128 .f32) (w : FVec Ideal S128x128 .f32) (p : Fin 400) (q : Fin 128) :
    matmul dot_S400x128_S128x128_S400x128_1_1_0_0_n_n none a w (constant S400x128 .f32 0x00000000#32) (ix2 p q)
      = ∑ k : Fin 128, a (ix2 p k) * w (ix2 q k) := by
  simp only [matmul]
  rw [Ideal.matmul_constant_zero_apply, ← Equiv.sum_comp (contrEquiv1 dot_S400x128_S128x128_S400x128_1_1_0_0_n_n 128 rfl rfl).symm]
  refine Finset.sum_congr rfl fun k _ => ?_
  have hk := contrEquiv1_symm_val dot_S400x128_S128x128_S400x128_1_1_0_0_n_n 128 rfl rfl k
  have el : dot_S400x128_S128x128_S400x128_1_1_0_0_n_n.lhsIdx (ix2 p q) ((contrEquiv1 dot_S400x128_S128x128_S400x128_1_1_0_0_n_n 128 rfl rfl).symm k) = ix2 p k := funext fun ax => Fin.ext (by
    match ax with
    | ⟨0, _⟩ => exact dh_lhs0 _ _
    | ⟨1, _⟩ => exact (dot_S400x128_S128x128_S400x128_1_1_0_0_n_n.lhsIdx_val_of_single rfl _ _).trans hk)
  have er : dot_S400x128_S128x128_S400x128_1_1_0_0_n_n.rhsIdx (ix2 p q) ((contrEquiv1 dot_S400x128_S128x128_S400x128_1_1_0_0_n_n 128 rfl rfl).symm k) = ix2 q k := funext fun ax => Fin.ext (by
    match ax with
    | ⟨0, _⟩ => exact dh_rhs0 _ _
    | ⟨1, _⟩ => exact (dot_S400x128_S128x128_S400x128_1_1_0_0_n_n.rhsIdx_val_of_single rfl _ _).trans hk)
  rw [el, er]

theorem da_lhs0 (i : S400x128.Idx) (q : dot_S400x10000_S10000x128_S400x128_1_0_0_1_n_n.contr.Idx) :
    (dot_S400x10000_S10000x128_S400x128_1_0_0_1_n_n.lhsIdx i q 0).val = (i 0).val := by
  unfold DotDims.lhsIdx
  rw [dif_neg (show ¬(0 : Fin S400x10000.rank) ∈ dot_S400x10000_S10000x128_S400x128_1_0_0_1_n_n.lhsBatch by decide), dif_pos (show (0 : Fin S400x10000.rank) ∈ dot_S400x10000_S10000x128_S400x128_1_0_0_1_n_n.lhsNonContracting by decide)]
  rfl
theorem da_rhs1 (i : S400x128.Idx) (q : dot_S400x10000_S10000x128_S400x128_1_0_0_1_n_n.contr.Idx) :
    (dot_S400x10000_S10000x128_S400x128_1_0_0_1_n_n.rhsIdx i q 1).val = (i 1).val := by
  unfold DotDims.rhsIdx
  rw [dif_neg (show ¬(1 : Fin S10000x128.rank) ∈ dot_S400x10000_S10000x128_S400x128_1_0_0_1_n_n.rhsBatch by decide), dif_pos (show (1 : Fin S10000x128.rank) ∈ dot_S400x10000_S10000x128_S400x128_1_0_0_1_n_n.rhsNonContracting by decide)]
  rfl

/-- The aggregation `a · h` at `(p, q)`: row `p` of the adjacency block against column `q` of the resident features
    (which the body re-casts to their own shape first). -/
theorem da_apply (a : FVec Ideal S400x10000 .f32) (h : FVec Ideal S10000x128 .f32) (p : Fin 400) (q : Fin 128) :
    matmul dot_S400x10000_S10000x128_S400x128_1_0_0_1_n_n none a (shapeCast S10000x128 h shapeCasts_S10000x128_S10000x128)
        (constant S400x128 .f32 0x00000000#32) (ix2 p q)
      = ∑ l : Fin 10000, a (ix2 p l) * h (ix2 l q) := by
  rw [shapeCast_self]
  simp only [matmul]
  rw [Ideal.matmul_constant_zero_apply, ← Equiv.sum_comp (contrEquiv1 dot_S400x10000_S10000x128_S400x128_1_0_0_1_n_n 10000 rfl rfl).symm]
  refine Finset.sum_congr rfl fun k _ => ?_
  have hk := contrEquiv1_symm_val dot_S400x10000_S10000x128_S400x128_1_0_0_1_n_n 10000 rfl rfl k
  have el : dot_S400x10000_S10000x128_S400x128_1_0_0_1_n_n.lhsIdx (ix2 p q) ((contrEquiv1 dot_S400x10000_S10000x128_S400x128_1_0_0_1_n_n 10000 rfl rfl).symm k) = ix2 p k := funext fun ax => Fin.ext (by
    match ax with
    | ⟨0, _⟩ => exact da_lhs0 _ _
    | ⟨1, _⟩ => exact (dot_S400x10000_S10000x128_S400x128_1_0_0_1_n_n.lhsIdx_val_of_single rfl _ _).trans hk)
  have er : dot_S400x10000_S10000x128_S400x128_1_0_0_1_n_n.rhsIdx (ix2 p q) ((contrEquiv1 dot_S400x10000_S10000x128_S400x128_1_0_0_1_n_n 10000 rfl rfl).symm k) = ix2 k q := funext fun ax => Fin.ext (by
    match ax with
    | ⟨0, _⟩ => exact (dot_S400x10000_S10000x128_S400x128_1_0_0_1_n_n.rhsIdx_val_of_single rfl _ _).trans hk
    | ⟨1, _⟩ => exact da_rhs1 _ _)
  rw [el, er]

/-! ## The bias row down a block's rows -/

/-- A `1 × 128` row broadcast to 2000 rows reads, at `(p, q)`, the row's entry `q`. -/
theorem bias2000 (b : FVec Ideal S1x128 .f32) (p : Fin 2000) (q : Fin 128) :
    broadcastTo S2000x128 (shapeCast S1x128 b shapeCasts_S1x128_S1x128) broadcasts_S1x128_S2000x128 (ix2 p q) = b (ix2 (0 : Fin 1) q) := by
  rw [shapeCast_self]
  exact broadcastTo_apply b broadcasts_S1x128_S2000x128 (ix2 p q) (ix2 (0 : Fin 1) q) fun ax => by
    match ax with
    | ⟨0, _⟩ => rfl
    | ⟨1, _⟩ => rfl

/-- A `1 × 128` row broadcast to 400 rows reads, at `(p, q)`, the row's entry `q`. -/
theorem bias400 (b : FVec Ideal S1x128 .f32) (p : Fin 400) (q : Fin 128) :
    broadcastTo S400x128 (shapeCast S1x128 b shapeCasts_S1x128_S1x128) broadcasts_S1x128_S400x128 (ix2 p q) = b (ix2 (0 : Fin 1) q) := by
  rw [shapeCast_self]
  exact broadcastTo_apply b broadcasts_S1x128_S400x128 (ix2 p q) (ix2 (0 : Fin 1) q) fun ax => by
    match ax with
    | ⟨0, _⟩ => rfl
    | ⟨1, _⟩ => rfl

/-! ## The first two bodies -/

/-- The first body at `(p, q)`: the linear layer on the block's rows. -/
theorem lin_block (x0 : Vec Ideal S2000x128 .f32) (x1 : Vec Ideal S128x128 .f32) (x2 : Vec Ideal S1x128 .f32) (p : Fin 2000) (q : Fin 128) :
    k0_pay1 (F := Ideal) x0 x1 x2 (ix2 p q) = linAt (fun r k => x0 (ix2 r k)) x1 (fun c => x2 (ix2 (0 : Fin 1) c)) p q := by
  unfold k0_pay1 linAt
  exact congrArg₂ (· + ·) (dl_apply x0 x1 p q) (bias2000 x2 p q)

/-- The second body at `(p, q)`: aggregate the block's rows, `relu`, then the linear layer. -/
theorem hidden_block (x0 : Vec Ideal S400x10000 .f32) (x1 : Vec Ideal S10000x128 .f32) (x6 : Vec Ideal S128x128 .f32) (x8 : Vec Ideal S1x128 .f32)
    (p : Fin 400) (q : Fin 128) :
    k1_pay1 (F := Ideal) x0 x1 x6 x8 (ix2 p q)
      = hiddenAt (fun r l => x0 (ix2 r l)) (fun l c => x1 (ix2 l c)) x6 (fun c => x8 (ix2 (0 : Fin 1) c)) p q := by
  unfold k1_pay1 hiddenAt linAt
  refine congrArg₂ (· + ·) ((dh_apply _ x6 p q).trans (Finset.sum_congr rfl fun k _ => congrArg (· * x6 (ix2 q k)) ?_)) (bias400 x8 p q)
  exact congrArg (max · zeroW) (da_apply x0 x1 p k)

/-! ## The last body: the row log-softmax by lane reductions -/

/-- The lane maximum of a `400 × 128` block at row `p` is the row's maximum: the fold of `max` from the word of `-inf`
    over the row's entries. -/
theorem rowmax400 (z : FVec Ideal S400x128 .f32) (hφ : FKind.Formats .f32)
    (hacc : (0xFF800000#32 : BitVec 32) = FKind.maximumf.neutral .f32 hφ) (p : Fin 400) :
    multiReduction .maximumf [1] S400 z 0xFF800000#32 reduces_S400x128_S400 hφ hacc (ix1 p) = rowMax (fun r c => z (ix2 r c)) p := by
  refine (Ideal.multiReduction_maximumf_single z 0xFF800000#32 reduces_S400x128_S400 hφ hacc (ix1 p)).trans ?_
  unfold rowMax
  refine congrArg (fun f : Fin 128 → EReal => (Finset.univ : Finset (Fin 128)).fold max negInfW f) (funext fun j => ?_)
  exact congrArg z (funext fun ax => Fin.ext (by match ax with | ⟨0, _⟩ => rfl | ⟨1, _⟩ => rfl))

/-- The lane sum of a `400 × 128` block at row `p` is the sum of the row's entries. -/
theorem rowsum400 (e : FVec Ideal S400x128 .f32) (hφ : FKind.Formats .f32)
    (hacc : (0x00000000#32 : BitVec 32) = FKind.add.neutral .f32 hφ) (p : Fin 400) :
    multiReduction .add [1] S400 e 0x00000000#32 reduces_S400x128_S400 hφ hacc (ix1 p) = ∑ j : Fin 128, e (ix2 p j) := by
  refine (Ideal.multiReduction_add_single e 0x00000000#32 reduces_S400x128_S400 hφ hacc (ix1 p)).trans ?_
  exact Finset.sum_congr rfl fun j _ => congrArg e (funext fun ax => Fin.ext (by match ax with | ⟨0, _⟩ => rfl | ⟨1, _⟩ => rfl))

/-- A 400-vector cast to a column and broadcast over the 128 columns reads, at `(p, q)`, the vector's entry `p`. -/
theorem col400 (u : FVec Ideal S400 .f32) (p : Fin 400) (q : Fin 128) :
    broadcastTo S400x128 (shapeCast S400x1 u shapeCasts_S400_S400x1) broadcasts_S400x1_S400x128 (ix2 p q) = u (ix1 p) :=
  (Cert.LibColumn.broadcastTo_a1_ab_apply _ broadcasts_S400x1_S400x128 p q).trans
    (Cert.LibUnitColumn.shapeCast_a_a1_apply u shapeCasts_S400_S400x1 p 0)

/-- The same through the logarithm taken on the column. -/
theorem collog400 (u : FVec Ideal S400 .f32) (p : Fin 400) (q : Fin 128) :
    broadcastTo S400x128 (log (shapeCast S400x1 u shapeCasts_S400_S400x1)) broadcasts_S400x1_S400x128 (ix2 p q) = Ideal.log (u (ix1 p)) :=
  (Cert.LibColumn.broadcastTo_a1_ab_apply _ broadcasts_S400x1_S400x128 p q).trans
    (congrArg Ideal.log (Cert.LibUnitColumn.shapeCast_a_a1_apply u shapeCasts_S400_S400x1 p 0))

/-- What the last body does to the product `z`, at `(p, q)`: the row log-softmax of `z`'s row `p`. -/
theorem softmax_tail (z : FVec Ideal S400x128 .f32) (hφ : FKind.Formats .f32)
    (hm : (0xFF800000#32 : BitVec 32) = FKind.maximumf.neutral .f32 hφ) (hφ' : FKind.Formats .f32)
    (hs : (0x00000000#32 : BitVec 32) = FKind.add.neutral .f32 hφ') (p : Fin 400) (q : Fin 128) :
    subf (subf z (broadcastTo S400x128 (shapeCast S400x1 (multiReduction .maximumf [1] S400 z 0xFF800000#32 reduces_S400x128_S400 hφ hm) shapeCasts_S400_S400x1) broadcasts_S400x1_S400x128))
        (broadcastTo S400x128 (log (shapeCast S400x1
          (multiReduction .add [1] S400
            (exp (subf z (broadcastTo S400x128 (shapeCast S400x1 (multiReduction .maximumf [1] S400 z 0xFF800000#32 reduces_S400x128_S400 hφ hm) shapeCasts_S400_S400x1) broadcasts_S400x1_S400x128)))
            0x00000000#32 reduces_S400x128_S400 hφ' hs) shapeCasts_S400_S400x1)) broadcasts_S400x1_S400x128) (ix2 p q)
      = logSoftmaxAt (fun r c => z (ix2 r c)) p q := by
  have hsh : ∀ j : Fin 128,
      (subf z (broadcastTo S400x128 (shapeCast S400x1 (multiReduction .maximumf [1] S400 z 0xFF800000#32 reduces_S400x128_S400 hφ hm) shapeCasts_S400_S400x1) broadcasts_S400x1_S400x128)) (ix2 p j)
        = z (ix2 p j) - rowMax (fun r c => z (ix2 r c)) p := fun j =>
    congrArg (z (ix2 p j) - ·) ((col400 _ p j).trans (rowmax400 z hφ hm p))
  unfold logSoftmaxAt
  refine congrArg₂ (· - ·) (hsh q) ?_
  refine (collog400 _ p q).trans (congrArg Ideal.log ?_)
  refine (rowsum400 _ hφ' hs p).trans (Finset.sum_congr rfl fun j _ => ?_)
  exact congrArg Ideal.exp (hsh j)

/-- The last body at `(p, q)`: aggregate the block's rows, then the row log-softmax. -/
theorem out_block (x0 : Vec Ideal S400x10000 .f32) (x1 : Vec Ideal S10000x128 .f32) (p : Fin 400) (q : Fin 128) :
    k2_pay1 (F := Ideal) x0 x1 (ix2 p q) = outAt (fun r l => x0 (ix2 r l)) (fun l c => x1 (ix2 l c)) p q := by
  unfold k2_pay1 outAt
  exact (softmax_tail _ _ _ _ _ p q).trans (logSoftmaxAt_congr _ _ p p (fun c => da_apply x0 x1 p c) q)

/-! ## A block's entry as the whole array's

A grid point's blocks are rows `tv · R …` of the streamed operand and the whole of every resident one. Given that
(`h0`: block entry `y` is array entry `i` whenever `i`'s row is `tv · R` plus `y`'s and the columns agree), what the body
stores at block entry `j` is the whole-array stage at the array entry `i` with the same relation to `j`. -/

theorem lin_point (x0 : Vec Ideal S2000x128 .f32) (x1 : Vec Ideal S128x128 .f32) (x2 : Vec Ideal S1x128 .f32)
    (X : Feat.Idx → EReal) (W : Wgt.Idx → EReal) (B : S1x128.Idx → EReal) (tv : Nat)
    (h0 : ∀ (y : S2000x128.Idx) (i : Feat.Idx), (i 0).val = tv * 2000 + (y 0).val → (i 1).val = (y 1).val → x0 y = X i)
    (h1 : ∀ y : S128x128.Idx, x1 y = W y) (h2 : ∀ y : S1x128.Idx, x2 y = B y)
    (j : S2000x128.Idx) (i : Feat.Idx) (hi0 : (i 0).val = tv * 2000 + (j 0).val) (hi1 : (i 1).val = (j 1).val) :
    k0_pay1 (F := Ideal) x0 x1 x2 j = toArr (linAt (fun r k => X (ix2 r k)) W (fun c => B (ix2 (0 : Fin 1) c))) i := by
  obtain ⟨p, q, rfl⟩ : ∃ (p : Fin 2000) (q : Fin 128), j = ix2 p q := ⟨j 0, j 1, eq_ix2 j⟩
  obtain ⟨r, s, rfl⟩ : ∃ (r : Fin 10000) (s : Fin 128), i = ix2 r s := ⟨i 0, i 1, eq_ix2 i⟩
  obtain rfl : s = q := Fin.ext hi1
  obtain rfl : x1 = W := funext h1
  obtain rfl : x2 = B := funext h2
  rw [lin_block, toArr_ix2]
  exact linAt_congr _ _ _ _ p r (fun k => h0 (ix2 p k) (ix2 r k) hi0 rfl) s

theorem hidden_point (x0 : Vec Ideal S400x10000 .f32) (x1 : Vec Ideal S10000x128 .f32) (x6 : Vec Ideal S128x128 .f32) (x8 : Vec Ideal S1x128 .f32)
    (A : AdjS.Idx → EReal) (H : Feat.Idx → EReal) (W : Wgt.Idx → EReal) (B : S1x128.Idx → EReal) (tv : Nat)
    (h0 : ∀ (y : S400x10000.Idx) (i : AdjS.Idx), (i 0).val = tv * 400 + (y 0).val → (i 1).val = (y 1).val → x0 y = A i)
    (h1 : ∀ y : S10000x128.Idx, x1 y = H y) (h2 : ∀ y : S128x128.Idx, x6 y = W y) (h3 : ∀ y : S1x128.Idx, x8 y = B y)
    (j : S400x128.Idx) (i : Feat.Idx) (hi0 : (i 0).val = tv * 400 + (j 0).val) (hi1 : (i 1).val = (j 1).val) :
    k1_pay1 (F := Ideal) x0 x1 x6 x8 j
      = toArr (hiddenAt (fun r l => A (ix2 r l)) (fun l c => H (ix2 l c)) W (fun c => B (ix2 (0 : Fin 1) c))) i := by
  obtain ⟨p, q, rfl⟩ : ∃ (p : Fin 400) (q : Fin 128), j = ix2 p q := ⟨j 0, j 1, eq_ix2 j⟩
  obtain ⟨r, s, rfl⟩ : ∃ (r : Fin 10000) (s : Fin 128), i = ix2 r s := ⟨i 0, i 1, eq_ix2 i⟩
  obtain rfl : s = q := Fin.ext hi1
  obtain rfl : x1 = H := funext h1
  obtain rfl : x6 = W := funext h2
  obtain rfl : x8 = B := funext h3
  rw [hidden_block, toArr_ix2]
  exact hiddenAt_congr _ _ _ _ _ p r (fun l => h0 (ix2 p l) (ix2 r l) hi0 rfl) s

theorem out_point (x0 : Vec Ideal S400x10000 .f32) (x1 : Vec Ideal S10000x128 .f32)
    (A : AdjS.Idx → EReal) (G : Feat.Idx → EReal) (tv : Nat)
    (h0 : ∀ (y : S400x10000.Idx) (i : AdjS.Idx), (i 0).val = tv * 400 + (y 0).val → (i 1).val = (y 1).val → x0 y = A i)
    (h1 : ∀ y : S10000x128.Idx, x1 y = G y)
    (j : S400x128.Idx) (i : Feat.Idx) (hi0 : (i 0).val = tv * 400 + (j 0).val) (hi1 : (i 1).val = (j 1).val) :
    k2_pay1 (F := Ideal) x0 x1 j = toArr (outAt (fun r l => A (ix2 r l)) (fun l c => G (ix2 l c))) i := by
  obtain ⟨p, q, rfl⟩ : ∃ (p : Fin 400) (q : Fin 128), j = ix2 p q := ⟨j 0, j 1, eq_ix2 j⟩
  obtain ⟨r, s, rfl⟩ : ∃ (r : Fin 10000) (s : Fin 128), i = ix2 r s := ⟨i 0, i 1, eq_ix2 i⟩
  obtain rfl : s = q := Fin.ext hi1
  obtain rfl : x1 = G := funext h1
  rw [out_block, toArr_ix2]
  exact outAt_congr _ _ _ p r (fun l => h0 (ix2 p l) (ix2 r l) hi0 rfl) s

end Cert.KernelIdeal.Blocks

end
-- ==== Proof.Region0.lean ====
/-
  The first pallas_call (five grid points, 2000 rows each): its result array is the linear layer `x W₁ᵀ + b₁`.

  Point `t` reads rows `2000 t … 2000 t + 1999` of the features, the whole weight matrix and the whole bias row, and
  writes back rows `2000 t …` of the result. What it writes is the linear layer on its rows (Blocks.lean), which is the
  whole array's linear layer at those rows; the five blocks tile the 10000 rows, so the array ends holding the layer.
-/
import proofs.«150236_g50663434224293_cont_8to1_c_478_4_alg».proof.Proof.Gen.KernelIdeal.Frame
import proofs.«150236_g50663434224293_cont_8to1_c_478_4_alg».proof.Proof.Blocks
import Idealize.ShloMosaic.Lib.Pipeline.Value
import Idealize.ShloMosaic.Lib.Tactic

noncomputable section

open scoped BigOperators

namespace Cert.KernelIdeal.Regions

open Cert.KernelIdeal Cert.KernelIdeal.Gen Cert.KernelIdeal.Blocks Cert.Gcn
open Idealize.ShloMosaic Idealize.ShloMosaic.TcCoe Idealize.ShloMosaic.ValueIdx Idealize.SL.Sem
open Idealize.ShloMosaic.Pipeline (Dat)

-- the buffer contents the region is entered with: every statement here is at any such contents
variable (V : (c : Dev nD) → (b : Ref sig .tc) → Buf (Elt Ideal) ((c : Thread nD τ).loc b))

theorem hz0 : (![0, 0] : Fin 2 → Nat) = fun _ => 0 := funext fun a => by fin_cases a <;> rfl

/-- The printed index maps over the five points: the features' and the result's block row is the point, every other
    block index is zero. -/
theorem idx0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0 :=
  (by decide +kernel : ∀ t : Fin grid0.N, _)

/-- The features' block at point `t`, entry `y`, is the features' entry `2000 t` rows further down. -/
theorem read0_0 (c : Dev nD) (t : Fin cfg0.N) (y : S2000x128.Idx) (i : S10000x128.Idx)
    (h0 : (i 0).val = t.val * 2000 + (y 0).val) (h1 : (i 1).val = (y 1).val) :
    (iblk0 V c 0 t : Vec Ideal S2000x128 .f32) y = (V c main_arg0 : S10000x128.Idx → EReal) i := by
  obtain ⟨e0, e1, -⟩ := idx0 t
  unfold iblk0
  rw [View.read_apply]
  show V c main_arg0 _ = V c main_arg0 _
  refine congrArg (V c main_arg0) (funext fun a => Fin.ext ?_)
  match a with
  | ⟨0, _⟩ => show win0_0.index t 0 * 2000 + 1 * (y 0).val = (i 0).val; rw [e0, h0]; omega
  | ⟨1, _⟩ => show win0_0.index t 1 * 128 + 1 * (y 1).val = (i 1).val; rw [e1, h1]; omega

/-- The weights' block at every point is the whole weight matrix. -/
theorem read0_1 (c : Dev nD) (t : Fin cfg0.N) (y : S128x128.Idx) :
    (iblk0 V c 1 t : Vec Ideal S128x128 .f32) y = (V c main_arg2 : S128x128.Idx → EReal) y := by
  obtain ⟨-, -, e2, e3, -⟩ := idx0 t
  unfold iblk0
  rw [View.read_apply]
  show V c main_arg2 _ = V c main_arg2 _
  refine congrArg (V c main_arg2) (funext fun a => Fin.ext ?_)
  match a with
  | ⟨0, _⟩ => show win0_1.index t 0 * 128 + 1 * (y 0).val = (y 0).val; rw [e2]; omega
  | ⟨1, _⟩ => show win0_1.index t 1 * 128 + 1 * (y 1).val = (y 1).val; rw [e3]; omega

/-- The bias row's block at every point is the whole row. -/
theorem read0_2 (c : Dev nD) (t : Fin cfg0.N) (y : S1x128.Idx) :
    (iblk0 V c 2 t : Vec Ideal S1x128 .f32) y = (V c main_v0 : S1x128.Idx → EReal) y := by
  obtain ⟨-, -, -, -, e4, e5, -⟩ := idx0 t
  unfold iblk0
  rw [View.read_apply]
  show V c main_v0 _ = V c main_v0 _
  refine congrArg (V c main_v0) (funext fun a => Fin.ext ?_)
  match a with
  | ⟨0, _⟩ => show win0_2.index t 0 * 1 + 1 * (y 0).val = (y 0).val; rw [e4]; omega
  | ⟨1, _⟩ => show win0_2.index t 1 * 128 + 1 * (y 1).val = (y 1).val; rw [e5]; omega

/-- The linear layer of the features, weights and bias row the region is entered with. -/
def lin0 (c : Dev nD) : S10000x128.Idx → EReal :=
  toArr (linAt (fun r k => (V c main_arg0 : S10000x128.Idx → EReal) (ix2 r k)) (V c main_arg2)
    (fun j => (V c main_v0 : S1x128.Idx → EReal) (ix2 (0 : Fin 1) j)))

/-- What point `t` writes back is block `t` of the linear layer. -/
theorem flushed0 (c : Dev nD) (t : Fin cfg0.N) :
    (dat0 V c).flushed 3 t = ((cfg0.win 3).blk t).view.read (Elt Ideal) (lin0 V c) := by
  show (cfg0.win 3).cut (grid0.coords t) ((dat0 V c).after 3 t) = _
  rw [after0_3]
  unfold out0_3
  rw [View.canon_unit_zero hz0]
  simp only [View.ld_unit_zero (S := S2000x128) hz0, View.ld_unit_zero (S := S128x128) hz0, View.ld_unit_zero (S := S1x128) hz0]
  obtain ⟨-, -, -, -, -, -, e6, e7⟩ := idx0 t
  funext j
  rw [View.read_apply]
  refine lin_point (iblk0 V c 0 t) (iblk0 V c 1 t) (iblk0 V c 2 t) (V c main_arg0) (V c main_arg2) (V c main_v0) t.val
    (fun y i h0 h1 => read0_0 V c t y i h0 h1) (fun y => read0_1 V c t y) (fun y => read0_2 V c t y) j _ ?_ ?_
  · show win0_3.index t 0 * 2000 + 1 * (j 0).val = t.val * 2000 + (j 0).val; rw [e6]; omega
  · show win0_3.index t 1 * 128 + 1 * (j 1).val = (j 1).val; rw [e7]; omega

/-- An entry of the result array is in point `t`'s block iff each coordinate is in the block's range on its axis. -/
theorem mem_blk0 (t : Fin cfg0.N) (i : S10000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v2).slice (win0_3.rect t)).set ↔ _
  rw [View.set_slice_whole, Rect.mem_set_unit]
  exact Iff.rfl

/-- Every entry is in the block of the point that is its row divided by 2000. -/
theorem cover0 (i : S10000x128.Idx) : ∃ t : Fin cfg0.N, (cfg0.win 3).flush t = true ∧ i ∈ ((cfg0.win 3).blk t).view.set := by
  have hN : cfg0.N = 5 := N_0
  have hi0 : (i 0).val < 10000 := idx2_lt0 i
  have hi1 : (i 1).val < 128 := idx2_lt1 i
  obtain ⟨t, ht⟩ : ∃ t : Fin cfg0.N, t.val = (i 0).val / 2000 := ⟨⟨(i 0).val / 2000, by omega⟩, rfl⟩
  obtain ⟨-, -, -, -, -, -, e6, e7⟩ := idx0 t
  refine ⟨t, flush0_3 t, ?_⟩
  rw [mem_blk0]
  intro a
  match a with
  | ⟨0, _⟩ => show win0_3.index t 0 * 2000 ≤ (i 0).val ∧ (i 0).val < win0_3.index t 0 * 2000 + 2000; rw [e6, ht]; omega
  | ⟨1, _⟩ => show win0_3.index t 1 * 128 ≤ (i 1).val ∧ (i 1).val < win0_3.index t 1 * 128 + 128; rw [e7]; omega

/-- The result array after the region: the linear layer. -/
theorem final0 (c : Dev nD) : (dat0 V c).arrAt 3 cfg0.N = lin0 V c :=
  (dat0 V c).arrAt_eq_of_cover 3 (lin0 V c) (fun t _ => flushed0 V c t) (cover0)

end Cert.KernelIdeal.Regions

end
-- ==== Proof.Region1.lean ====
/-
  The second pallas_call (25 grid points, 400 rows each): its result array is the second layer's input,
  `relu (A · h) W₂ᵀ + b₂`, of the adjacency `A`, the first region's result `h`, the second weights and bias row.

  Point `t` reads rows `400 t … 400 t + 399` of the adjacency and the whole of `h`, of the weights and of the bias row,
  and writes back rows `400 t …` of the result: the stage on its rows (Blocks.lean), which is the whole array's stage at
  those rows; the 25 blocks tile the 10000 rows.
-/
import proofs.«150236_g50663434224293_cont_8to1_c_478_4_alg».proof.Proof.Gen.KernelIdeal.Frame
import proofs.«150236_g50663434224293_cont_8to1_c_478_4_alg».proof.Proof.Blocks
import Idealize.ShloMosaic.Lib.Pipeline.Value
import Idealize.ShloMosaic.Lib.Tactic

noncomputable section

open scoped BigOperators

namespace Cert.KernelIdeal.Regions

open Cert.KernelIdeal Cert.KernelIdeal.Gen Cert.KernelIdeal.Blocks Cert.Gcn
open Idealize.ShloMosaic Idealize.ShloMosaic.TcCoe Idealize.ShloMosaic.ValueIdx Idealize.SL.Sem
open Idealize.ShloMosaic.Pipeline (Dat)

-- the buffer contents the region is entered with: every statement here is at any such contents
variable (V : (c : Dev nD) → (b : Ref sig .tc) → Buf (Elt Ideal) ((c : Thread nD τ).loc b))

theorem hz1 : (![0, 0] : Fin 2 → Nat) = fun _ => 0 := funext fun a => by fin_cases a <;> rfl

/-- The printed index maps over the 25 points: the adjacency's and the result's block row is the point, every other
    block index is zero. -/
theorem idx1 : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0 :=
  (by decide +kernel : ∀ t : Fin grid1.N, _)

/-- The adjacency block at point `t`, entry `y`, is the adjacency's entry `400 t` rows further down. -/
theorem read1_0 (c : Dev nD) (t : Fin cfg1.N) (y : S400x10000.Idx) (i : S10000x10000.Idx)
    (h0 : (i 0).val = t.val * 400 + (y 0).val) (h1 : (i 1).val = (y 1).val) :
    (iblk1 V c 0 t : Vec Ideal S400x10000 .f32) y = (V c main_arg1 : S10000x10000.Idx → EReal) i := by
  obtain ⟨e0, e1, -⟩ := idx1 t
  unfold iblk1
  rw [View.read_apply]
  show V c main_arg1 _ = V c main_arg1 _
  refine congrArg (V c main_arg1) (funext fun a => Fin.ext ?_)
  match a with
  | ⟨0, _⟩ => show win1_0.index t 0 * 400 + 1 * (y 0).val = (i 0).val; rw [e0, h0]; omega
  | ⟨1, _⟩ => show win1_0.index t 1 * 10000 + 1 * (y 1).val = (i 1).val; rw [e1, h1]; omega

/-- The resident features' block at every point is the whole array. -/
theorem read1_1 (c : Dev nD) (t : Fin cfg1.N) (y : S10000x128.Idx) :
    (iblk1 V c 1 t : Vec Ideal S10000x128 .f32) y = (V c main_v2 : S10000x128.Idx → EReal) y := by
  obtain ⟨-, -, e2, e3, -⟩ := idx1 t
  unfold iblk1
  rw [View.read_apply]
  show V c main_v2 _ = V c main_v2 _
  refine congrArg (V c main_v2) (funext fun a => Fin.ext ?_)
  match a with
  | ⟨0, _⟩ => show win1_1.index t 0 * 10000 + 1 * (y 0).val = (y 0).val; rw [e2]; omega
  | ⟨1, _⟩ => show win1_1.index t 1 * 128 + 1 * (y 1).val = (y 1).val; rw [e3]; omega

/-- The weights' block at every point is the whole weight matrix. -/
theorem read1_2 (c : Dev nD) (t : Fin cfg1.N) (y : S128x128.Idx) :
    (iblk1 V c 2 t : Vec Ideal S128x128 .f32) y = (V c main_arg4 : S128x128.Idx → EReal) y := by
  obtain ⟨-, -, -, -, e4, e5, -⟩ := idx1 t
  unfold iblk1
  rw [View.read_apply]
  show V c main_arg4 _ = V c main_arg4 _
  refine congrArg (V c main_arg4) (funext fun a => Fin.ext ?_)
  match a with
  | ⟨0, _⟩ => show win1_2.index t 0 * 128 + 1 * (y 0).val = (y 0).val; rw [e4]; omega
  | ⟨1, _⟩ => show win1_2.index t 1 * 128 + 1 * (y 1).val = (y 1).val; rw [e5]; omega

/-- The bias row's block at every point is the whole row. -/
theorem read1_3 (c : Dev nD) (t : Fin cfg1.N) (y : S1x128.Idx) :
    (iblk1 V c 3 t : Vec Ideal S1x128 .f32) y = (V c main_v1 : S1x128.Idx → EReal) y := by
  obtain ⟨-, -, -, -, -, -, e6, e7, -⟩ := idx1 t
  unfold iblk1
  rw [View.read_apply]
  show V c main_v1 _ = V c main_v1 _
  refine congrArg (V c main_v1) (funext fun a => Fin.ext ?_)
  match a with
  | ⟨0, _⟩ => show win1_3.index t 0 * 1 + 1 * (y 0).val = (y 0).val; rw [e6]; omega
  | ⟨1, _⟩ => show win1_3.index t 1 * 128 + 1 * (y 1).val = (y 1).val; rw [e7]; omega

/-- The second layer's input of the arrays the region is entered with. -/
def hidden1 (c : Dev nD) : S10000x128.Idx → EReal :=
  toArr (hiddenAt (fun r l => (V c main_arg1 : S10000x10000.Idx → EReal) (ix2 r l))
    (fun l k => (V c main_v2 : S10000x128.Idx → EReal) (ix2 l k)) (V c main_arg4)
    (fun j => (V c main_v1 : S1x128.Idx → EReal) (ix2 (0 : Fin 1) j)))

/-- What point `t` writes back is block `t` of that array. -/
theorem flushed1 (c : Dev nD) (t : Fin cfg1.N) :
    (dat1 V c).flushed 4 t = ((cfg1.win 4).blk t).view.read (Elt Ideal) (hidden1 V c) := by
  show (cfg1.win 4).cut (grid1.coords t) ((dat1 V c).after 4 t) = _
  rw [after1_4]
  unfold out1_4
  rw [View.canon_unit_zero hz1]
  simp only [View.ld_unit_zero (S := S400x10000) hz1, View.ld_unit_zero (S := S10000x128) hz1, View.ld_unit_zero (S := S128x128) hz1, View.ld_unit_zero (S := S1x128) hz1]
  obtain ⟨-, -, -, -, -, -, -, -, e8, e9⟩ := idx1 t
  funext j
  rw [View.read_apply]
  refine hidden_point (iblk1 V c 0 t) (iblk1 V c 1 t) (iblk1 V c 2 t) (iblk1 V c 3 t) (V c main_arg1) (V c main_v2) (V c main_arg4) (V c main_v1) t.val
    (fun y i h0 h1 => read1_0 V c t y i h0 h1) (fun y => read1_1 V c t y) (fun y => read1_2 V c t y) (fun y => read1_3 V c t y) j _ ?_ ?_
  · show win1_4.index t 0 * 400 + 1 * (j 0).val = t.val * 400 + (j 0).val; rw [e8]; omega
  · show win1_4.index t 1 * 128 + 1 * (j 1).val = (j 1).val; rw [e9]; omega

/-- An entry of the result array is in point `t`'s block iff each coordinate is in the block's range on its axis. -/
theorem mem_blk1 (t : Fin cfg1.N) (i : S10000x128.Idx) :
    i ∈ ((cfg1.win 4).blk t).view.set ↔ ∀ a : Fin 2, win1_4.index t a * S400x128.size a ≤ (i a).val ∧ (i a).val < win1_4.index t a * S400x128.size a + S400x128.size a := by
  show i ∈ ((View.whole main_v3).slice (win1_4.rect t)).set ↔ _
  rw [View.set_slice_whole, Rect.mem_set_unit]
  exact Iff.rfl

/-- Every entry is in the block of the point that is its row divided by 400. -/
theorem cover1 (i : S10000x128.Idx) : ∃ t : Fin cfg1.N, (cfg1.win 4).flush t = true ∧ i ∈ ((cfg1.win 4).blk t).view.set := by
  have hN : cfg1.N = 25 := N_1
  have hi0 : (i 0).val < 10000 := idx2_lt0 i
  have hi1 : (i 1).val < 128 := idx2_lt1 i
  obtain ⟨t, ht⟩ : ∃ t : Fin cfg1.N, t.val = (i 0).val / 400 := ⟨⟨(i 0).val / 400, by omega⟩, rfl⟩
  obtain ⟨-, -, -, -, -, -, -, -, e8, e9⟩ := idx1 t
  refine ⟨t, flush1_4 t, ?_⟩
  rw [mem_blk1]
  intro a
  match a with
  | ⟨0, _⟩ => show win1_4.index t 0 * 400 ≤ (i 0).val ∧ (i 0).val < win1_4.index t 0 * 400 + 400; rw [e8, ht]; omega
  | ⟨1, _⟩ => show win1_4.index t 1 * 128 ≤ (i 1).val ∧ (i 1).val < win1_4.index t 1 * 128 + 128; rw [e9]; omega

/-- The result array after the region. -/
theorem final1 (c : Dev nD) : (dat1 V c).arrAt 4 cfg1.N = hidden1 V c :=
  (dat1 V c).arrAt_eq_of_cover 4 (hidden1 V c) (fun t _ => flushed1 V c t) (cover1)

end Cert.KernelIdeal.Regions

end
-- ==== Proof.Region2.lean ====
/-
  The third pallas_call (25 grid points, 400 rows each): its result array is the row log-softmax of `A · g`, of the
  adjacency `A` and the second region's result `g`.

  Point `t` reads rows `400 t … 400 t + 399` of the adjacency and the whole of `g`, and writes back rows `400 t …` of the
  result: the stage on its rows (Blocks.lean) — a row's maximum and sum never leave the row —, which is the whole
  array's stage at those rows; the 25 blocks tile the 10000 rows.
-/
import proofs.«150236_g50663434224293_cont_8to1_c_478_4_alg».proof.Proof.Gen.KernelIdeal.Frame
import proofs.«150236_g50663434224293_cont_8to1_c_478_4_alg».proof.Proof.Blocks
import Idealize.ShloMosaic.Lib.Pipeline.Value
import Idealize.ShloMosaic.Lib.Tactic

noncomputable section

open scoped BigOperators

namespace Cert.KernelIdeal.Regions

open Cert.KernelIdeal Cert.KernelIdeal.Gen Cert.KernelIdeal.Blocks Cert.Gcn
open Idealize.ShloMosaic Idealize.ShloMosaic.TcCoe Idealize.ShloMosaic.ValueIdx Idealize.SL.Sem
open Idealize.ShloMosaic.Pipeline (Dat)

-- the buffer contents the region is entered with: every statement here is at any such contents
variable (V : (c : Dev nD) → (b : Ref sig .tc) → Buf (Elt Ideal) ((c : Thread nD τ).loc b))

theorem hz2 : (![0, 0] : Fin 2 → Nat) = fun _ => 0 := funext fun a => by fin_cases a <;> rfl

/-- The printed index maps over the 25 points: the adjacency's and the result's block row is the point, every other
    block index is zero. -/
theorem idx2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- The adjacency block at point `t`, entry `y`, is the adjacency's entry `400 t` rows further down. -/
theorem read2_0 (c : Dev nD) (t : Fin cfg2.N) (y : S400x10000.Idx) (i : S10000x10000.Idx)
    (h0 : (i 0).val = t.val * 400 + (y 0).val) (h1 : (i 1).val = (y 1).val) :
    (iblk2 V c 0 t : Vec Ideal S400x10000 .f32) y = (V c main_arg1 : S10000x10000.Idx → EReal) i := by
  obtain ⟨e0, e1, -⟩ := idx2 t
  unfold iblk2
  rw [View.read_apply]
  show V c main_arg1 _ = V c main_arg1 _
  refine congrArg (V c main_arg1) (funext fun a => Fin.ext ?_)
  match a with
  | ⟨0, _⟩ => show win2_0.index t 0 * 400 + 1 * (y 0).val = (i 0).val; rw [e0, h0]; omega
  | ⟨1, _⟩ => show win2_0.index t 1 * 10000 + 1 * (y 1).val = (i 1).val; rw [e1, h1]; omega

/-- The resident features' block at every point is the whole array. -/
theorem read2_1 (c : Dev nD) (t : Fin cfg2.N) (y : S10000x128.Idx) :
    (iblk2 V c 1 t : Vec Ideal S10000x128 .f32) y = (V c main_v3 : S10000x128.Idx → EReal) y := by
  obtain ⟨-, -, e2, e3, -⟩ := idx2 t
  unfold iblk2
  rw [View.read_apply]
  show V c main_v3 _ = V c main_v3 _
  refine congrArg (V c main_v3) (funext fun a => Fin.ext ?_)
  match a with
  | ⟨0, _⟩ => show win2_1.index t 0 * 10000 + 1 * (y 0).val = (y 0).val; rw [e2]; omega
  | ⟨1, _⟩ => show win2_1.index t 1 * 128 + 1 * (y 1).val = (y 1).val; rw [e3]; omega

/-- The last stage of the arrays the region is entered with. -/
def out2 (c : Dev nD) : S10000x128.Idx → EReal :=
  toArr (outAt (fun r l => (V c main_arg1 : S10000x10000.Idx → EReal) (ix2 r l))
    (fun l k => (V c main_v3 : S10000x128.Idx → EReal) (ix2 l k)))

/-- What point `t` writes back is block `t` of that array. -/
theorem flushed2 (c : Dev nD) (t : Fin cfg2.N) :
    (dat2 V c).flushed 2 t = ((cfg2.win 2).blk t).view.read (Elt Ideal) (out2 V c) := by
  show (cfg2.win 2).cut (grid2.coords t) ((dat2 V c).after 2 t) = _
  rw [after2_2]
  unfold out2_2
  rw [View.canon_unit_zero hz2]
  simp only [View.ld_unit_zero (S := S400x10000) hz2, View.ld_unit_zero (S := S10000x128) hz2]
  obtain ⟨-, -, -, -, e4, e5⟩ := idx2 t
  funext j
  rw [View.read_apply]
  refine out_point (iblk2 V c 0 t) (iblk2 V c 1 t) (V c main_arg1) (V c main_v3) t.val
    (fun y i h0 h1 => read2_0 V c t y i h0 h1) (fun y => read2_1 V c t y) j _ ?_ ?_
  · show win2_2.index t 0 * 400 + 1 * (j 0).val = t.val * 400 + (j 0).val; rw [e4]; omega
  · show win2_2.index t 1 * 128 + 1 * (j 1).val = (j 1).val; rw [e5]; omega

/-- An entry of the result array is in point `t`'s block iff each coordinate is in the block's range on its axis. -/
theorem mem_blk2 (t : Fin cfg2.N) (i : S10000x128.Idx) :
    i ∈ ((cfg2.win 2).blk t).view.set ↔ ∀ a : Fin 2, win2_2.index t a * S400x128.size a ≤ (i a).val ∧ (i a).val < win2_2.index t a * S400x128.size a + S400x128.size a := by
  show i ∈ ((View.whole main_v4).slice (win2_2.rect t)).set ↔ _
  rw [View.set_slice_whole, Rect.mem_set_unit]
  exact Iff.rfl

/-- Every entry is in the block of the point that is its row divided by 400. -/
theorem cover2 (i : S10000x128.Idx) : ∃ t : Fin cfg2.N, (cfg2.win 2).flush t = true ∧ i ∈ ((cfg2.win 2).blk t).view.set := by
  have hN : cfg2.N = 25 := N_2
  have hi0 : (i 0).val < 10000 := idx2_lt0 i
  have hi1 : (i 1).val < 128 := idx2_lt1 i
  obtain ⟨t, ht⟩ : ∃ t : Fin cfg2.N, t.val = (i 0).val / 400 := ⟨⟨(i 0).val / 400, by omega⟩, rfl⟩
  obtain ⟨-, -, -, -, e4, e5⟩ := idx2 t
  refine ⟨t, flush2_2 t, ?_⟩
  rw [mem_blk2]
  intro a
  match a with
  | ⟨0, _⟩ => show win2_2.index t 0 * 400 ≤ (i 0).val ∧ (i 0).val < win2_2.index t 0 * 400 + 400; rw [e4, ht]; omega
  | ⟨1, _⟩ => show win2_2.index t 1 * 128 ≤ (i 1).val ∧ (i 1).val < win2_2.index t 1 * 128 + 128; rw [e5]; omega

/-- The result array after the region. -/
theorem final2 (c : Dev nD) : (dat2 V c).arrAt 2 cfg2.N = out2 V c :=
  (dat2 V c).arrAt_eq_of_cover 2 (out2 V c) (fun t _ => flushed2 V c t) (cover2)

end Cert.KernelIdeal.Regions

end
-- ==== Proof.KernelValue.lean ====
/-
  The kernel program's result array as one function of its six arguments.

  The program is two reshapes of the bias vectors to rows, then three pallas_calls. The generated run folds the buffer
  contents through these segments: `W1` after the reshapes, `W2`, `W3`, `W4` after each call, where a call's own arrays
  hold what its write-backs leave and every other buffer what it held. Walking that fold back from the result buffer:
  the last call's result is the row log-softmax of `A · g` of what it was entered with (Region2.lean), where `A` is
  still the launch adjacency (no segment writes an argument) and `g` is the second call's result, the second layer's
  input of `A`, the second weights, the second bias row and the first call's result (Region1.lean), which is the linear
  layer of the launch features, the first weights and the first bias row (Region0.lean). A bias row is its vector
  re-cast to `1 × 128`: entry `(0, j)` of the row is entry `j` of the vector. Composed, the result is `Cert.Gcn.gcn`
  of the arguments.
-/
import proofs.«150236_g50663434224293_cont_8to1_c_478_4_alg».proof.Proof.Region0
import proofs.«150236_g50663434224293_cont_8to1_c_478_4_alg».proof.Proof.Region1
import proofs.«150236_g50663434224293_cont_8to1_c_478_4_alg».proof.Proof.Region2
import Idealize.ShloMosaic.Lib.StableHlo.Run

noncomputable section

open scoped BigOperators

namespace Cert.KernelIdeal.Whole

open Cert.KernelIdeal Cert.KernelIdeal.Gen Cert.KernelIdeal.Regions Cert.Gcn
open Idealize.ShloMosaic Idealize.ShloMosaic.TcCoe Idealize.ShloMosaic.ValueIdx Idealize.SL.Sem Idealize.ShloMosaic.StableHlo
open Idealize.ShloMosaic.Pipeline (Dat)

/-! ## Each region's stage depends on its entry contents only through the arrays it reads -/

section Entry
variable (V : (c : Dev nD) → (b : Ref sig .tc) → Buf (Elt Ideal) ((c : Thread nD τ).loc b))

theorem lin0_eq (c : Dev nD) (X : S10000x128.Idx → EReal) (W : S128x128.Idx → EReal) (B : S1x128.Idx → EReal)
    (h0 : V c main_arg0 = X) (h1 : V c main_arg2 = W) (h2 : V c main_v0 = B) :
    lin0 V c = toArr (linAt (fun r k => X (ix2 r k)) W (fun j => B (ix2 (0 : Fin 1) j))) := by
  subst h0 h1 h2; rfl

theorem hidden1_eq (c : Dev nD) (A : S10000x10000.Idx → EReal) (H : S10000x128.Idx → EReal) (W : S128x128.Idx → EReal) (B : S1x128.Idx → EReal)
    (h0 : V c main_arg1 = A) (h1 : V c main_v2 = H) (h2 : V c main_arg4 = W) (h3 : V c main_v1 = B) :
    hidden1 V c = toArr (hiddenAt (fun r l => A (ix2 r l)) (fun l k => H (ix2 l k)) W (fun j => B (ix2 (0 : Fin 1) j))) := by
  subst h0 h1 h2 h3; rfl

theorem out2_eq (c : Dev nD) (A : S10000x10000.Idx → EReal) (G : S10000x128.Idx → EReal)
    (h0 : V c main_arg1 = A) (h1 : V c main_v3 = G) :
    out2 V c = toArr (outAt (fun r l => A (ix2 r l)) (fun l k => G (ix2 l k))) := by
  subst h0 h1; rfl

end Entry

/-- A 128-vector re-cast to a `1 × 128` row reads, at `(0, j)`, the vector's entry `j`. -/
theorem row_of_vector (b : S128.Idx → EReal) (j : Fin 128) :
    shapeCast S1x128 b shapeCasts_S128_S1x128 (ix2 (0 : Fin 1) j) = b (ix1 j) :=
  shapeCast_apply b shapeCasts_S128_S1x128 _ _ (by
    rw [Shape.rowMajor_val_one, Shape.rowMajor_val_two]
    show j.val = 0 * 128 + j.val
    omega)

variable (m : (ℓ : Loc nD τ sig) → Buf (Elt Ideal) ℓ) (ρ : Dev nD → PrngReg)

/-! ## After the two reshapes -/

theorem W1_arg0 (c : Dev nD) : W1 m ρ c (Proc.devRef .tc main_arg0) = m ((c : Thread nD τ).loc main_arg0) := by
  show StableHlo.after hostOps0 (W0 m ρ c) (Proc.devRef .tc main_arg0) = _
  after_results <;> rfl
theorem W1_arg1 (c : Dev nD) : W1 m ρ c (Proc.devRef .tc main_arg1) = m ((c : Thread nD τ).loc main_arg1) := by
  show StableHlo.after hostOps0 (W0 m ρ c) (Proc.devRef .tc main_arg1) = _
  after_results <;> rfl
theorem W1_arg2 (c : Dev nD) : W1 m ρ c (Proc.devRef .tc main_arg2) = m ((c : Thread nD τ).loc main_arg2) := by
  show StableHlo.after hostOps0 (W0 m ρ c) (Proc.devRef .tc main_arg2) = _
  after_results <;> rfl
theorem W1_arg4 (c : Dev nD) : W1 m ρ c (Proc.devRef .tc main_arg4) = m ((c : Thread nD τ).loc main_arg4) := by
  show StableHlo.after hostOps0 (W0 m ρ c) (Proc.devRef .tc main_arg4) = _
  after_results <;> rfl
/-- The first bias row is the first bias vector re-cast. -/
theorem W1_v0 (c : Dev nD) : (W1 m ρ c (Proc.devRef .tc main_v0) : S1x128.Idx → EReal)
    = shapeCast S1x128 (m ((c : Thread nD τ).loc main_arg3) : S128.Idx → EReal) shapeCasts_S128_S1x128 := by
  show StableHlo.after hostOps0 (W0 m ρ c) (Proc.devRef .tc main_v0) = _
  after_results <;> rfl
/-- The second bias row is the second bias vector re-cast. -/
theorem W1_v1 (c : Dev nD) : (W1 m ρ c (Proc.devRef .tc main_v1) : S1x128.Idx → EReal)
    = shapeCast S1x128 (m ((c : Thread nD τ).loc main_arg5) : S128.Idx → EReal) shapeCasts_S128_S1x128 := by
  show StableHlo.after hostOps0 (W0 m ρ c) (Proc.devRef .tc main_v1) = _
  after_results <;> rfl

/-! ## The arguments as launched, by row and column -/

abbrev X (c : Dev nD) : Fin 10000 → Fin 128 → EReal := fun r k => (m ((c : Thread nD τ).loc main_arg0) : S10000x128.Idx → EReal) (ix2 r k)
abbrev A (c : Dev nD) : Fin 10000 → Fin 10000 → EReal := fun r l => (m ((c : Thread nD τ).loc main_arg1) : S10000x10000.Idx → EReal) (ix2 r l)
abbrev Wa (c : Dev nD) : S128x128.Idx → EReal := m ((c : Thread nD τ).loc main_arg2)
abbrev ba (c : Dev nD) : Fin 128 → EReal := fun j => (m ((c : Thread nD τ).loc main_arg3) : S128.Idx → EReal) (ix1 j)
abbrev Wb (c : Dev nD) : S128x128.Idx → EReal := m ((c : Thread nD τ).loc main_arg4)
abbrev bb (c : Dev nD) : Fin 128 → EReal := fun j => (m ((c : Thread nD τ).loc main_arg5) : S128.Idx → EReal) (ix1 j)

/-! ## The first call's result -/

theorem v2_value (c : Dev nD) : (W2 m ρ c (Proc.devRef .tc main_v2) : S10000x128.Idx → EReal) = toArr (linAt (X m c) (Wa m c) (ba m c)) := by
  refine (W2_arr m ρ c 3).trans ((final0 (V1 m ρ) c).trans ?_)
  refine (lin0_eq (V1 m ρ) c _ _ _ (W1_arg0 m ρ c) (W1_arg2 m ρ c) (W1_v0 m ρ c)).trans ?_
  exact congrArg (fun b => toArr (linAt (X m c) (Wa m c) b)) (funext fun j => row_of_vector _ j)

/-! ## The second call's entry contents and result -/

theorem W2_arg1 (c : Dev nD) : W2 m ρ c (Proc.devRef .tc main_arg1) = m ((c : Thread nD τ).loc main_arg1) :=
  (W2_of_ne m ρ c main_arg1 (by decide)).trans (W1_arg1 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_v1 (c : Dev nD) : (W2 m ρ c (Proc.devRef .tc main_v1) : S1x128.Idx → EReal)
    = shapeCast S1x128 (m ((c : Thread nD τ).loc main_arg5) : S128.Idx → EReal) shapeCasts_S128_S1x128 :=
  (W2_of_ne m ρ c main_v1 (by decide)).trans (W1_v1 m ρ c)

theorem v3_value (c : Dev nD) : (W3 m ρ c (Proc.devRef .tc main_v3) : S10000x128.Idx → EReal)
    = toArr (hiddenAt (A m c) (linAt (X m c) (Wa m c) (ba m c)) (Wb m c) (bb m c)) := by
  refine (W3_arr m ρ c 4).trans ((final1 (V2 m ρ) c).trans ?_)
  refine (hidden1_eq (V2 m ρ) c _ _ _ _ (W2_arg1 m ρ c) (v2_value m ρ c) (W2_arg4 m ρ c) (W2_v1 m ρ c)).trans ?_
  exact congrArg (fun b => toArr (hiddenAt (A m c) (linAt (X m c) (Wa m c) (ba m c)) (Wb m c) b)) (funext fun j => row_of_vector _ j)

/-! ## The third call's entry contents and result -/

theorem W3_arg1 (c : Dev nD) : W3 m ρ c (Proc.devRef .tc main_arg1) = m ((c : Thread nD τ).loc main_arg1) :=
  ((W3_arr m ρ c 0).trans (((dat1 (V2 m ρ) c).arrAt_in 0 rfl _).trans (A_eq1 (V2 m ρ) c 0))).trans (W2_arg1 m ρ c)

/-- THE RESULT: after the last call the result buffer holds the network of the launch arguments. -/
theorem v4_value (c : Dev nD) : (W4 m ρ c (Proc.devRef .tc main_v4) : S10000x128.Idx → EReal)
    = toArr (gcn (X m c) (A m c) (Wa m c) (ba m c) (Wb m c) (bb m c)) := by
  have h1 : W4 m ρ c (Proc.devRef .tc main_v4) = (dat2 (V3 m ρ) c).arrAt 2 cfg2.N := W4_arr m ρ c 2
  have h2 : (dat2 (V3 m ρ) c).arrAt 2 cfg2.N = out2 (V3 m ρ) c := final2 (V3 m ρ) c
  have h3 := out2_eq (V3 m ρ) c (m ((c : Thread nD τ).loc main_arg1)) (toArr (hiddenAt (A m c) (linAt (X m c) (Wa m c) (ba m c)) (Wb m c) (bb m c)))
    (W3_arg1 m ρ c) (v3_value m ρ c)
  exact h1.trans (h2.trans h3)

end Cert.KernelIdeal.Whole

end
-- ==== Proof.KernelRun.lean ====
/-
  The kernel program's run with its result buffer named.

  The run is the generated one: @main as its four segments (the two reshapes, then the three pallas_calls), launched
  by the several-regions theorem, whose last thread state holds every unscoped buffer at the last boundary's contents
  `W4`. The generated frame reads only the argument buffers off that state; the same launch read at the result buffer
  as well gives the result at `W4`'s value there, which KernelValue.lean computes: the network of the arguments.
-/
import proofs.«150236_g50663434224293_cont_8to1_c_478_4_alg».proof.Proof.KernelValue

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

section Run

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- Every weakly fair execution of @main terminates, nothing faulting, with the result buffer at the last boundary's
    contents and the arguments as launched. -/
theorem run_result : θ_run defs (onTc (τ := τ) (main (F := F))) ⟨m, fun _ => 0, ρ⟩ (fun r => ∀ c : Dev nD,
      r.2.mem ((c.tc : Thread nD τ).loc main_v4) = W4 m ρ c (Proc.devRef .tc main_v4)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v4 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c)⟩)

end Run

/-- At the ideal values: the result buffer ends at the network of the launch arguments, the arguments unchanged. -/
theorem run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v4) = Cert.Gcn.toArr (Cert.Gcn.gcn (X m c) (A m c) (Wa m c) (ba m c) (Wb m c) (bb m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨(h c).1.trans (v4_value m ρ c), (h c).2⟩) (run_result m ρ)

end Cert.KernelIdeal.Whole

end
-- ==== Proof.LibHostLine.lean ====
/-
  Two facts for reading back a straight line of host operations, for any buffer signature and any values.

  * The fold of the operations' results through a CONCATENATION of two lines is the fold through the second line from
    the fold through the first. So a long line can be cut into short segments, each computed from a variable
    valuation, and no term is ever deeper than its segment.
  * An outlined function's operations move a value between a buffer's own type and the tensor type along the
    equation of the two; at a literal buffer that equation is `rfl` and the move is the identity, in either direction.
    Stated over a variable value, so that a move around a large term (a host reduce, which is a concrete fold over
    every index of its operand) is removed by rewriting or congruence without the term being opened.
-/
import Idealize.ShloMosaic.Lib.StableHlo.Run

namespace Cert.LibHostLine

open Idealize.ShloMosaic Idealize.ShloMosaic.StableHlo

variable {τ : Topo} {sig : RefSig} {Val : EltTy → Type}

/-- The fold through a concatenation is the fold through the second line from the fold through the first. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A value moved to a literal buffer's own type along `rfl` is itself. -/
theorem toBuf_self (r : Ref sig .tc) (hd : r.space ≠ .host) (hu : r.isScoped = false) (v : r.ty.Contents Val) :
    (TRef.of (T := r.ty) r rfl hd hu).toBuf v = v := rfl

/-- A value moved back from a literal buffer's own type along `rfl` is itself. -/
theorem ofBuf_self (r : Ref sig .tc) (hd : r.space ≠ .host) (hu : r.isScoped = false) (v : r.ty.Contents Val) :
    (TRef.of (T := r.ty) r rfl hd hu).ofBuf v = v := rfl

end Cert.LibHostLine
-- ==== Proof.RefRun.lean ====
/-
  The reference's run, read back.

  The reference is a straight line of 30 host operations (the two outlined functions, `relu` and `log_softmax`, stand in
  their calls' places). Every weakly fair execution of it terminates, and each buffer ends at the fold of the
  operations' results over the launch contents; read at the result buffer, that fold is the composition below of four
  stages — the linear layer `x Wᵀ + b` (a transposed weight matrix, a contraction, the bias broadcast down the rows),
  the aggregation `A · h`, `relu`, and the row log-softmax in its shifted form (the row maximum, joined once more with
  `-inf`; the shift; the logarithm of the row's sum of exponentials) — of the six argument arrays, which end unchanged.
-/
import proofs.«150236_g50663434224293_cont_8to1_c_478_4_alg».proof.Proof.Gen.ReferenceIdeal
import proofs.«150236_g50663434224293_cont_8to1_c_478_4_alg».proof.Proof.LibHostLine
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo
open Cert.LibHostLine (after_append toBuf_self ofBuf_self)

variable {F : FTy → Type} [FloatOps F]

/-- @main's 30 operations, in order (a called function's operations stand in its call's place, spelt `TRef.…`). -/
abbrev ops : List (HloOp τ sig (Elt F)) :=
  [ unary main_arg2 main_v0 ((transpose S128x128 [1, 0] · transposes_S128x128_S128x128_1_0) : (⟨S128x128, .f32⟩ : BufTy).Contents (Elt F) → (⟨S128x128, .f32⟩ : BufTy).Contents (Elt F)),
    binary main_arg0 main_v0 main_v1 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg3 main_v2 (broadcastInDim S1x128 ![1] bcast_S128_S1x128_1 : (⟨S128, .f32⟩ : BufTy).Contents (Elt F) → (⟨S1x128, .f32⟩ : BufTy).Contents (Elt F)),
    unary main_v2 main_v3 (broadcastInDim S10000x128 ![0, 1] bcast_S1x128_S10000x128_0_1 : (⟨S1x128, .f32⟩ : BufTy).Contents (Elt F) → (⟨S10000x128, .f32⟩ : BufTy).Contents (Elt F)),
    binary main_v1 main_v3 main_v4 (addf : (⟨S10000x128, .f32⟩ : BufTy).Contents (Elt F) → (⟨S10000x128, .f32⟩ : BufTy).Contents (Elt F) → (⟨S10000x128, .f32⟩ : BufTy).Contents (Elt F)),
    binary main_arg1 main_v4 main_v5 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call0_cst) (constant S_ .f32 0x00000000#32),
    TRef.unary (TRef.of (T := ⟨S_, .f32⟩) main_call0_cst) (TRef.of (T := ⟨S10000x128, .f32⟩) main_call0_v0) (broadcastInDim S10000x128 ![] bcast_S_S10000x128),
    TRef.binary (TRef.of (T := ⟨S10000x128, .f32⟩) main_v5) (TRef.of (T := ⟨S10000x128, .f32⟩) main_call0_v0) (TRef.of (T := ⟨S10000x128, .f32⟩) main_v6) maximumf,
    unary main_arg4 main_v7 ((transpose S128x128 [1, 0] · transposes_S128x128_S128x128_1_0) : (⟨S128x128, .f32⟩ : BufTy).Contents (Elt F) → (⟨S128x128, .f32⟩ : BufTy).Contents (Elt F)),
    binary main_v6 main_v7 main_v8 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg5 main_v9 (broadcastInDim S1x128 ![1] bcast_S128_S1x128_1 : (⟨S128, .f32⟩ : BufTy).Contents (Elt F) → (⟨S1x128, .f32⟩ : BufTy).Contents (Elt F)),
    unary main_v9 main_v10 (broadcastInDim S10000x128 ![0, 1] bcast_S1x128_S10000x128_0_1 : (⟨S1x128, .f32⟩ : BufTy).Contents (Elt F) → (⟨S10000x128, .f32⟩ : BufTy).Contents (Elt F)),
    binary main_v8 main_v10 main_v11 (addf : (⟨S10000x128, .f32⟩ : BufTy).Contents (Elt F) → (⟨S10000x128, .f32⟩ : BufTy).Contents (Elt F) → (⟨S10000x128, .f32⟩ : BufTy).Contents (Elt F)),
    binary main_arg1 main_v11 main_v12 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)),
    TRef.nullary (TRef.of (T := ⟨S_, .f32⟩) main_call1_cst) (constant S_ .f32 0xFF800000#32),
    TRef.binary (TRef.of (T := ⟨S10000x128, .f32⟩) main_v12) (TRef.of (T := ⟨S_, .f32⟩) main_call1_cst) (TRef.of (T := ⟨S10000, .f32⟩) main_call1_v0) (fun x v => Host.reduce FloatOps.maximumf x v reducesTo_S10000x128_S10000_d1 h_S_),
    TRef.nullary (TRef.of (T := ⟨S_, .f32⟩) main_call1_cst_0) (constant S_ .f32 0xFF800000#32),
    TRef.unary (TRef.of (T := ⟨S_, .f32⟩) main_call1_cst_0) (TRef.of (T := ⟨S10000, .f32⟩) main_call1_v1) (broadcastInDim S10000 ![] bcast_S_S10000),
    TRef.binary (TRef.of (T := ⟨S10000, .f32⟩) main_call1_v1) (TRef.of (T := ⟨S10000, .f32⟩) main_call1_v0) (TRef.of (T := ⟨S10000, .f32⟩) main_call1_v2) maximumf,
    TRef.unary (TRef.of (T := ⟨S10000, .f32⟩) main_call1_v2) (TRef.of (T := ⟨S10000x1, .f32⟩) main_call1_v3) (broadcastInDim S10000x1 ![0] bcast_S10000_S10000x1_0),
    TRef.unary (TRef.of (T := ⟨S10000x1, .f32⟩) main_call1_v3) (TRef.of (T := ⟨S10000x128, .f32⟩) main_call1_v4) (broadcastInDim S10000x128 ![0, 1] bcast_S10000x1_S10000x128_0_1),
    TRef.binary (TRef.of (T := ⟨S10000x128, .f32⟩) main_v12) (TRef.of (T := ⟨S10000x128, .f32⟩) main_call1_v4) (TRef.of (T := ⟨S10000x128, .f32⟩) main_call1_v5) subf,
    TRef.unary (TRef.of (T := ⟨S10000x128, .f32⟩) main_call1_v5) (TRef.of (T := ⟨S10000x128, .f32⟩) main_call1_v6) Host.exp,
    TRef.nullary (TRef.of (T := ⟨S_, .f32⟩) main_call1_cst_1) (constant S_ .f32 0x00000000#32),
    TRef.binary (TRef.of (T := ⟨S10000x128, .f32⟩) main_call1_v6) (TRef.of (T := ⟨S_, .f32⟩) main_call1_cst_1) (TRef.of (T := ⟨S10000, .f32⟩) main_call1_v7) (fun x v => Host.reduceAdd x v reducesTo_S10000x128_S10000_d1 h_S_),
    TRef.unary (TRef.of (T := ⟨S10000, .f32⟩) main_call1_v7) (TRef.of (T := ⟨S10000x1, .f32⟩) main_call1_v8) (broadcastInDim S10000x1 ![0] bcast_S10000_S10000x1_0),
    TRef.unary (TRef.of (T := ⟨S10000x1, .f32⟩) main_call1_v8) (TRef.of (T := ⟨S10000x1, .f32⟩) main_call1_v9) Host.log,
    TRef.unary (TRef.of (T := ⟨S10000x1, .f32⟩) main_call1_v9) (TRef.of (T := ⟨S10000x128, .f32⟩) main_call1_v10) (broadcastInDim S10000x128 ![0, 1] bcast_S10000x1_S10000x128_0_1),
    TRef.binary (TRef.of (T := ⟨S10000x128, .f32⟩) main_call1_v5) (TRef.of (T := ⟨S10000x128, .f32⟩) main_call1_v10) (TRef.of (T := ⟨S10000x128, .f32⟩) main_v13) subf ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨unary_bufs_sub .., binary_bufs_sub .., unary_bufs_sub .., unary_bufs_sub .., binary_bufs_sub .., binary_bufs_sub .., nullary_bufs_sub .., unary_bufs_sub .., binary_bufs_sub .., unary_bufs_sub .., binary_bufs_sub .., unary_bufs_sub .., unary_bufs_sub .., binary_bufs_sub .., binary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub ..⟩

/-- Operations 1–6: the first layer and its aggregation. -/
abbrev s1 : List (HloOp τ sig (Elt F)) :=
  [ unary main_arg2 main_v0 ((transpose S128x128 [1, 0] · transposes_S128x128_S128x128_1_0) : (⟨S128x128, .f32⟩ : BufTy).Contents (Elt F) → (⟨S128x128, .f32⟩ : BufTy).Contents (Elt F)),
    binary main_arg0 main_v0 main_v1 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg3 main_v2 (broadcastInDim S1x128 ![1] bcast_S128_S1x128_1 : (⟨S128, .f32⟩ : BufTy).Contents (Elt F) → (⟨S1x128, .f32⟩ : BufTy).Contents (Elt F)),
    unary main_v2 main_v3 (broadcastInDim S10000x128 ![0, 1] bcast_S1x128_S10000x128_0_1 : (⟨S1x128, .f32⟩ : BufTy).Contents (Elt F) → (⟨S10000x128, .f32⟩ : BufTy).Contents (Elt F)),
    binary main_v1 main_v3 main_v4 (addf : (⟨S10000x128, .f32⟩ : BufTy).Contents (Elt F) → (⟨S10000x128, .f32⟩ : BufTy).Contents (Elt F) → (⟨S10000x128, .f32⟩ : BufTy).Contents (Elt F)),
    binary main_arg1 main_v4 main_v5 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)) ]

/-- Operations 7–9: the outlined `relu`. -/
abbrev s2 : List (HloOp τ sig (Elt F)) :=
  [ TRef.nullary (TRef.of (T := ⟨S_, .f32⟩) main_call0_cst) (constant S_ .f32 0x00000000#32),
    TRef.unary (TRef.of (T := ⟨S_, .f32⟩) main_call0_cst) (TRef.of (T := ⟨S10000x128, .f32⟩) main_call0_v0) (broadcastInDim S10000x128 ![] bcast_S_S10000x128),
    TRef.binary (TRef.of (T := ⟨S10000x128, .f32⟩) main_v5) (TRef.of (T := ⟨S10000x128, .f32⟩) main_call0_v0) (TRef.of (T := ⟨S10000x128, .f32⟩) main_v6) maximumf ]

/-- Operations 10–15: the second layer and its aggregation. -/
abbrev s3 : List (HloOp τ sig (Elt F)) :=
  [ unary main_arg4 main_v7 ((transpose S128x128 [1, 0] · transposes_S128x128_S128x128_1_0) : (⟨S128x128, .f32⟩ : BufTy).Contents (Elt F) → (⟨S128x128, .f32⟩ : BufTy).Contents (Elt F)),
    binary main_v6 main_v7 main_v8 ((fun l r => Host.dotGeneral dot_S10000x128_S128x128_S10000x128_1_0_0_1_n_n none l r) : (⟨S10000x128, .f32⟩ : BufTy).Contents (Elt F) → (⟨S128x128, .f32⟩ : BufTy).Contents (Elt F) → (⟨S10000x128, .f32⟩ : BufTy).Contents (Elt F)),
    unary main_arg5 main_v9 (broadcastInDim S1x128 ![1] bcast_S128_S1x128_1 : (⟨S128, .f32⟩ : BufTy).Contents (Elt F) → (⟨S1x128, .f32⟩ : BufTy).Contents (Elt F)),
    unary main_v9 main_v10 (broadcastInDim S10000x128 ![0, 1] bcast_S1x128_S10000x128_0_1 : (⟨S1x128, .f32⟩ : BufTy).Contents (Elt F) → (⟨S10000x128, .f32⟩ : BufTy).Contents (Elt F)),
    binary main_v8 main_v10 main_v11 (addf : (⟨S10000x128, .f32⟩ : BufTy).Contents (Elt F) → (⟨S10000x128, .f32⟩ : BufTy).Contents (Elt F) → (⟨S10000x128, .f32⟩ : BufTy).Contents (Elt F)),
    binary main_arg1 main_v11 main_v12 ((fun l r => Host.dotGeneral dot_S10000x10000_S10000x128_S10000x128_1_0_0_1_n_n none l r) : (⟨S10000x10000, .f32⟩ : BufTy).Contents (Elt F) → (⟨S10000x128, .f32⟩ : BufTy).Contents (Elt F) → (⟨S10000x128, .f32⟩ : BufTy).Contents (Elt F)) ]

/-- Operations 16–17: the row maximum (a reduce by `max` from `-inf`). -/
abbrev s4a : List (HloOp τ sig (Elt F)) :=
  [ TRef.nullary (TRef.of (T := ⟨S_, .f32⟩) main_call1_cst) (constant S_ .f32 0xFF800000#32),
    TRef.binary (TRef.of (T := ⟨S10000x128, .f32⟩) main_v12) (TRef.of (T := ⟨S_, .f32⟩) main_call1_cst) (TRef.of (T := ⟨S10000, .f32⟩) main_call1_v0) (fun x v => Host.reduce FloatOps.maximumf x v reducesTo_S10000x128_S10000_d1 h_S_) ]

/-- Operations 18–23: the maximum joined with `-inf`, cast to a column, broadcast, subtracted. -/
abbrev s4b : List (HloOp τ sig (Elt F)) :=
  [ TRef.nullary (TRef.of (T := ⟨S_, .f32⟩) main_call1_cst_0) (constant S_ .f32 0xFF800000#32),
    TRef.unary (TRef.of (T := ⟨S_, .f32⟩) main_call1_cst_0) (TRef.of (T := ⟨S10000, .f32⟩) main_call1_v1) (broadcastInDim S10000 ![] bcast_S_S10000),
    TRef.binary (TRef.of (T := ⟨S10000, .f32⟩) main_call1_v1) (TRef.of (T := ⟨S10000, .f32⟩) main_call1_v0) (TRef.of (T := ⟨S10000, .f32⟩) main_call1_v2) maximumf,
    TRef.unary (TRef.of (T := ⟨S10000, .f32⟩) main_call1_v2) (TRef.of (T := ⟨S10000x1, .f32⟩) main_call1_v3) (broadcastInDim S10000x1 ![0] bcast_S10000_S10000x1_0),
    TRef.unary (TRef.of (T := ⟨S10000x1, .f32⟩) main_call1_v3) (TRef.of (T := ⟨S10000x128, .f32⟩) main_call1_v4) (broadcastInDim S10000x128 ![0, 1] bcast_S10000x1_S10000x128_0_1),
    TRef.binary (TRef.of (T := ⟨S10000x128, .f32⟩) main_v12) (TRef.of (T := ⟨S10000x128, .f32⟩) main_call1_v4) (TRef.of (T := ⟨S10000x128, .f32⟩) main_call1_v5) subf ]

/-- Operations 24–30: the rest of the log-softmax. -/
abbrev s5 : List (HloOp τ sig (Elt F)) :=
  [ TRef.unary (TRef.of (T := ⟨S10000x128, .f32⟩) main_call1_v5) (TRef.of (T := ⟨S10000x128, .f32⟩) main_call1_v6) Host.exp,
    TRef.nullary (TRef.of (T := ⟨S_, .f32⟩) main_call1_cst_1) (constant S_ .f32 0x00000000#32),
    TRef.binary (TRef.of (T := ⟨S10000x128, .f32⟩) main_call1_v6) (TRef.of (T := ⟨S_, .f32⟩) main_call1_cst_1) (TRef.of (T := ⟨S10000, .f32⟩) main_call1_v7) (fun x v => Host.reduceAdd x v reducesTo_S10000x128_S10000_d1 h_S_),
    TRef.unary (TRef.of (T := ⟨S10000, .f32⟩) main_call1_v7) (TRef.of (T := ⟨S10000x1, .f32⟩) main_call1_v8) (broadcastInDim S10000x1 ![0] bcast_S10000_S10000x1_0),
    TRef.unary (TRef.of (T := ⟨S10000x1, .f32⟩) main_call1_v8) (TRef.of (T := ⟨S10000x1, .f32⟩) main_call1_v9) Host.log,
    TRef.unary (TRef.of (T := ⟨S10000x1, .f32⟩) main_call1_v9) (TRef.of (T := ⟨S10000x128, .f32⟩) main_call1_v10) (broadcastInDim S10000x128 ![0, 1] bcast_S10000x1_S10000x128_0_1),
    TRef.binary (TRef.of (T := ⟨S10000x128, .f32⟩) main_call1_v5) (TRef.of (T := ⟨S10000x128, .f32⟩) main_call1_v10) (TRef.of (T := ⟨S10000x128, .f32⟩) main_v13) subf ]

theorem ops_split : (ops : List (HloOp τ sig (Elt F))) = s1 ++ (s2 ++ (s3 ++ (s4a ++ (s4b ++ s5)))) := rfl

/-! ## The stages, as the operations spell them -/

/-- `x Wᵀ + b`: the contraction against the transposed weights, plus the bias broadcast to a row and down the rows. -/
def refLin (x : (⟨S10000x128, .f32⟩ : BufTy).Contents (Elt F)) (W : (⟨S128x128, .f32⟩ : BufTy).Contents (Elt F)) (b : (⟨S128, .f32⟩ : BufTy).Contents (Elt F)) : (⟨S10000x128, .f32⟩ : BufTy).Contents (Elt F) :=
  addf (Host.dotGeneral dot_S10000x128_S128x128_S10000x128_1_0_0_1_n_n none x (transpose S128x128 [1, 0] W transposes_S128x128_S128x128_1_0))
    (broadcastInDim S10000x128 ![0, 1] bcast_S1x128_S10000x128_0_1 (broadcastInDim S1x128 ![1] bcast_S128_S1x128_1 b))

/-- `A · h`. -/
def refAgg (A : (⟨S10000x10000, .f32⟩ : BufTy).Contents (Elt F)) (h : (⟨S10000x128, .f32⟩ : BufTy).Contents (Elt F)) : (⟨S10000x128, .f32⟩ : BufTy).Contents (Elt F) :=
  Host.dotGeneral dot_S10000x10000_S10000x128_S10000x128_1_0_0_1_n_n none A h

/-- `relu`: the maximum with a splat of zero. -/
def refRelu (h : (⟨S10000x128, .f32⟩ : BufTy).Contents (Elt F)) : (⟨S10000x128, .f32⟩ : BufTy).Contents (Elt F) :=
  maximumf h (broadcastInDim S10000x128 ![] bcast_S_S10000x128 (constant S_ .f32 0x00000000#32))

/-- The row maximum: the reduce by `max` from a `-inf` scalar along each row. -/
def refRowMax (z : (⟨S10000x128, .f32⟩ : BufTy).Contents (Elt F)) : (⟨S10000, .f32⟩ : BufTy).Contents (Elt F) :=
  Host.reduce FloatOps.maximumf z (constant S_ .f32 0xFF800000#32) reducesTo_S10000x128_S10000_d1 h_S_

/-- `z` less a per-row value `mx` joined with a splat of `-inf`, cast to a column and broadcast over the columns. -/
def refShiftWith (z : (⟨S10000x128, .f32⟩ : BufTy).Contents (Elt F)) (mx : (⟨S10000, .f32⟩ : BufTy).Contents (Elt F)) : (⟨S10000x128, .f32⟩ : BufTy).Contents (Elt F) :=
  subf z (broadcastInDim S10000x128 ![0, 1] bcast_S10000x1_S10000x128_0_1 (broadcastInDim S10000x1 ![0] bcast_S10000_S10000x1_0
    (maximumf (broadcastInDim S10000 ![] bcast_S_S10000 (constant S_ .f32 0xFF800000#32)) mx)))

/-- `z` less its row maximum. -/
def refShift (z : (⟨S10000x128, .f32⟩ : BufTy).Contents (Elt F)) : (⟨S10000x128, .f32⟩ : BufTy).Contents (Elt F) := refShiftWith z (refRowMax z)

/-- The row sum: the reduce by `+` from a zero scalar along each row. -/
def refRowSum (e : (⟨S10000x128, .f32⟩ : BufTy).Contents (Elt F)) : (⟨S10000, .f32⟩ : BufTy).Contents (Elt F) :=
  Host.reduceAdd e (constant S_ .f32 0x00000000#32) reducesTo_S10000x128_S10000_d1 h_S_

/-- From the shifted array `s`: `s` less the logarithm of its exponentials' row sum (cast to a column, broadcast). -/
def refTail (s : (⟨S10000x128, .f32⟩ : BufTy).Contents (Elt F)) : (⟨S10000x128, .f32⟩ : BufTy).Contents (Elt F) :=
  subf s (broadcastInDim S10000x128 ![0, 1] bcast_S10000x1_S10000x128_0_1 (Host.log (broadcastInDim S10000x1 ![0] bcast_S10000_S10000x1_0
    (refRowSum (Host.exp s)))))

/-- The row log-softmax. -/
def refLogSoftmax (z : (⟨S10000x128, .f32⟩ : BufTy).Contents (Elt F)) : (⟨S10000x128, .f32⟩ : BufTy).Contents (Elt F) := refTail (refShift z)

/-- The reference's result of its six arguments. -/
def refOut (x : (⟨S10000x128, .f32⟩ : BufTy).Contents (Elt F)) (A : (⟨S10000x10000, .f32⟩ : BufTy).Contents (Elt F)) (W1 : (⟨S128x128, .f32⟩ : BufTy).Contents (Elt F)) (b1 : (⟨S128, .f32⟩ : BufTy).Contents (Elt F))
    (W2 : (⟨S128x128, .f32⟩ : BufTy).Contents (Elt F)) (b2 : (⟨S128, .f32⟩ : BufTy).Contents (Elt F)) : (⟨S10000x128, .f32⟩ : BufTy).Contents (Elt F) :=
  refLogSoftmax (refAgg A (refLin (refRelu (refAgg A (refLin x W1 b1))) W2 b2))

/-! ## The fold, segment by segment, from ANY contents `V`

Each segment is computed from a variable `V`, so that no term is more than a few operations deep. The outlined
functions' operations move a value between a buffer's own type and the tensor type along an equation that is `rfl` at a
literal buffer, so the moves are identities. -/

theorem seg1 (V : Valuation τ sig (Elt F)) :
    after s1 V (Proc.devRef .tc main_v5) = refAgg (V (Proc.devRef .tc main_arg1)) (refLin (V (Proc.devRef .tc main_arg0)) (V (Proc.devRef .tc main_arg2)) (V (Proc.devRef .tc main_arg3))) := by
  after_results_simp <;> (unfold refAgg refLin; rfl)

theorem seg2 (V : Valuation τ sig (Elt F)) : after s2 V (Proc.devRef .tc main_v6) = refRelu (V (Proc.devRef .tc main_v5)) := by
  after_results_simp <;> (unfold refRelu; rfl)

theorem seg3 (V : Valuation τ sig (Elt F)) :
    after s3 V (Proc.devRef .tc main_v12) = refAgg (V (Proc.devRef .tc main_arg1)) (refLin (V (Proc.devRef .tc main_v6)) (V (Proc.devRef .tc main_arg4)) (V (Proc.devRef .tc main_arg5))) := by
  after_results_simp <;> (unfold refAgg refLin; rfl)

/-- The row maximum's segment. The reduce is carried as it stands: only the three moves around it are removed, each
    by the identity (a move along `rfl`), under the reduce's own congruence. -/
theorem seg4a (V : Valuation τ sig (Elt F)) : after s4a V (Proc.devRef .tc main_call1_v0) = refRowMax (V (Proc.devRef .tc main_v12)) := by
  after_results_simp
  refine (toBuf_self main_call1_v0 _ _ _).trans ?_
  unfold refRowMax
  exact congrArg₂ (fun x v => Host.reduce FloatOps.maximumf x v reducesTo_S10000x128_S10000_d1 h_S_)
    (ofBuf_self main_v12 _ _ _) ((ofBuf_self main_call1_cst _ _ _).trans (toBuf_self main_call1_cst _ _ _))

theorem keep4a (V : Valuation τ sig (Elt F)) : after s4a V (Proc.devRef .tc main_v12) = V (Proc.devRef .tc main_v12) := by after_results_simp

theorem seg4b (V : Valuation τ sig (Elt F)) : after s4b V (Proc.devRef .tc main_call1_v5) = refShiftWith (V (Proc.devRef .tc main_v12)) (V (Proc.devRef .tc main_call1_v0)) := by
  after_results_simp <;> (unfold refShiftWith; rfl)

theorem seg5 (V : Valuation τ sig (Elt F)) : after s5 V (Proc.devRef .tc main_v13) = refTail (V (Proc.devRef .tc main_call1_v5)) := by
  after_results_simp <;> (unfold refTail refRowSum; rfl)

theorem keep1_1 (V : Valuation τ sig (Elt F)) : after s1 V (Proc.devRef .tc main_arg1) = V (Proc.devRef .tc main_arg1) := by after_results_simp
theorem keep1_4 (V : Valuation τ sig (Elt F)) : after s1 V (Proc.devRef .tc main_arg4) = V (Proc.devRef .tc main_arg4) := by after_results_simp
theorem keep1_5 (V : Valuation τ sig (Elt F)) : after s1 V (Proc.devRef .tc main_arg5) = V (Proc.devRef .tc main_arg5) := by after_results_simp
theorem keep2_1 (V : Valuation τ sig (Elt F)) : after s2 V (Proc.devRef .tc main_arg1) = V (Proc.devRef .tc main_arg1) := by after_results_simp
theorem keep2_4 (V : Valuation τ sig (Elt F)) : after s2 V (Proc.devRef .tc main_arg4) = V (Proc.devRef .tc main_arg4) := by after_results_simp
theorem keep2_5 (V : Valuation τ sig (Elt F)) : after s2 V (Proc.devRef .tc main_arg5) = V (Proc.devRef .tc main_arg5) := by after_results_simp

/-- The whole line's result buffer. -/
theorem fold_result (V : Valuation τ sig (Elt F)) :
    after ops V (Proc.devRef .tc main_v13)
      = refOut (V (Proc.devRef .tc main_arg0)) (V (Proc.devRef .tc main_arg1)) (V (Proc.devRef .tc main_arg2)) (V (Proc.devRef .tc main_arg3))
          (V (Proc.devRef .tc main_arg4)) (V (Proc.devRef .tc main_arg5)) := by
  rw [ops_split, after_append, after_append, after_append, after_append, after_append, seg5, seg4b, keep4a, seg4a, seg3, seg2, keep2_1, keep2_4, keep2_5,
    seg1, keep1_1, keep1_4, keep1_5]
  rfl

theorem fold_arg0 (V : Valuation τ sig (Elt F)) : after ops V (Proc.devRef .tc main_arg0) = V (Proc.devRef .tc main_arg0) := by after_results_simp
theorem fold_arg1 (V : Valuation τ sig (Elt F)) : after ops V (Proc.devRef .tc main_arg1) = V (Proc.devRef .tc main_arg1) := by after_results_simp
theorem fold_arg2 (V : Valuation τ sig (Elt F)) : after ops V (Proc.devRef .tc main_arg2) = V (Proc.devRef .tc main_arg2) := by after_results_simp
theorem fold_arg3 (V : Valuation τ sig (Elt F)) : after ops V (Proc.devRef .tc main_arg3) = V (Proc.devRef .tc main_arg3) := by after_results_simp
theorem fold_arg4 (V : Valuation τ sig (Elt F)) : after ops V (Proc.devRef .tc main_arg4) = V (Proc.devRef .tc main_arg4) := by after_results_simp
theorem fold_arg5 (V : Valuation τ sig (Elt F)) : after ops V (Proc.devRef .tc main_arg5) = V (Proc.devRef .tc main_arg5) := by after_results_simp

/-- On every device, from any memory with zero counters: every weakly fair execution of @main terminates with the
    result at `refOut` of the arguments and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13) = refOut (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v13).trans (fold_result (launchContents m c)),
      (h c main_arg0).trans (fold_arg0 (launchContents m c)),
      (h c main_arg1).trans (fold_arg1 (launchContents m c)),
      (h c main_arg2).trans (fold_arg2 (launchContents m c)),
      (h c main_arg3).trans (fold_arg3 (launchContents m c)),
      (h c main_arg4).trans (fold_arg4 (launchContents m c)),
      (h c main_arg5).trans (fold_arg5 (launchContents m c))⟩)
    (run_seq scopedRefs_eq scopedSems_eq defs main (fun _ => ops) main_eq (fun _ => ops_sub) m ρ)

end Cert.ReferenceIdeal.Hand

end
-- ==== Proof.RefDots.lean ====
/-
  The reference's contractions and broadcasts read at one entry, at the ideal values.

  A host contraction over one axis is the plain sum of products over that axis; a vector reaches an entry of a
  `10000 × 128` array through two broadcasts as the entry of its own that the broadcast axis names.
-/
import proofs.«150236_g50663434224293_cont_8to1_c_478_4_alg».proof.Proof.RefRun
import proofs.«150236_g50663434224293_cont_8to1_c_478_4_alg».proof.Proof.GcnSpec
import Idealize.ShloMosaic.Lib.Pipeline.Value
import Idealize.ShloMosaic.Lib.ValueIdx
import Idealize.ShloMosaic.PureOps.Ideal.Laws

noncomputable section

open scoped BigOperators

namespace Cert.ReferenceIdeal.Stages

open Cert.ReferenceIdeal Cert.ReferenceIdeal.Gen Cert.ReferenceIdeal.Hand Cert.Gcn Idealize.ShloMosaic Idealize.ShloMosaic.ValueIdx

/-! ## The two contractions at an entry -/

theorem d1_lhs0 (i : S10000x128.Idx) (q : dot_S10000x128_S128x128_S10000x128_1_0_0_1_n_n.contr.Idx) : (dot_S10000x128_S128x128_S10000x128_1_0_0_1_n_n.lhsIdx i q 0).val = (i 0).val := by
  unfold DotDims.lhsIdx
  rw [dif_neg (show ¬(0 : Fin S10000x128.rank) ∈ dot_S10000x128_S128x128_S10000x128_1_0_0_1_n_n.lhsBatch by decide), dif_pos (show (0 : Fin S10000x128.rank) ∈ dot_S10000x128_S128x128_S10000x128_1_0_0_1_n_n.lhsNonContracting by decide)]
  rfl
theorem d1_rhs1 (i : S10000x128.Idx) (q : dot_S10000x128_S128x128_S10000x128_1_0_0_1_n_n.contr.Idx) : (dot_S10000x128_S128x128_S10000x128_1_0_0_1_n_n.rhsIdx i q 1).val = (i 1).val := by
  unfold DotDims.rhsIdx
  rw [dif_neg (show ¬(1 : Fin S128x128.rank) ∈ dot_S10000x128_S128x128_S10000x128_1_0_0_1_n_n.rhsBatch by decide), dif_pos (show (1 : Fin S128x128.rank) ∈ dot_S10000x128_S128x128_S10000x128_1_0_0_1_n_n.rhsNonContracting by decide)]
  rfl

/-- A feature matrix against a `128 × 128` matrix at `(r, c)`: row `r` against column `c`. -/
theorem d1_apply (a : FVec Ideal S10000x128 .f32) (w : FVec Ideal S128x128 .f32) (r : Fin 10000) (c : Fin 128) :
    Host.dotGeneral dot_S10000x128_S128x128_S10000x128_1_0_0_1_n_n none a w (ix2 r c) = ∑ k : Fin 128, a (ix2 r k) * w (ix2 k c) := by
  simp only [Host.dotGeneral]
  rw [Ideal.dotGeneral_apply, ← Equiv.sum_comp (contrEquiv1 dot_S10000x128_S128x128_S10000x128_1_0_0_1_n_n 128 rfl rfl).symm]
  refine Finset.sum_congr rfl fun k _ => ?_
  have hk := contrEquiv1_symm_val dot_S10000x128_S128x128_S10000x128_1_0_0_1_n_n 128 rfl rfl k
  have el : dot_S10000x128_S128x128_S10000x128_1_0_0_1_n_n.lhsIdx (ix2 r c) ((contrEquiv1 dot_S10000x128_S128x128_S10000x128_1_0_0_1_n_n 128 rfl rfl).symm k) = ix2 r k := funext fun ax => Fin.ext (by
    match ax with
    | ⟨0, _⟩ => exact d1_lhs0 _ _
    | ⟨1, _⟩ => exact (dot_S10000x128_S128x128_S10000x128_1_0_0_1_n_n.lhsIdx_val_of_single rfl _ _).trans hk)
  have er : dot_S10000x128_S128x128_S10000x128_1_0_0_1_n_n.rhsIdx (ix2 r c) ((contrEquiv1 dot_S10000x128_S128x128_S10000x128_1_0_0_1_n_n 128 rfl rfl).symm k) = ix2 k c := funext fun ax => Fin.ext (by
    match ax with
    | ⟨0, _⟩ => exact (dot_S10000x128_S128x128_S10000x128_1_0_0_1_n_n.rhsIdx_val_of_single rfl _ _).trans hk
    | ⟨1, _⟩ => exact d1_rhs1 _ _)
  rw [el, er]

theorem d2_lhs0 (i : S10000x128.Idx) (q : dot_S10000x10000_S10000x128_S10000x128_1_0_0_1_n_n.contr.Idx) : (dot_S10000x10000_S10000x128_S10000x128_1_0_0_1_n_n.lhsIdx i q 0).val = (i 0).val := by
  unfold DotDims.lhsIdx
  rw [dif_neg (show ¬(0 : Fin S10000x10000.rank) ∈ dot_S10000x10000_S10000x128_S10000x128_1_0_0_1_n_n.lhsBatch by decide), dif_pos (show (0 : Fin S10000x10000.rank) ∈ dot_S10000x10000_S10000x128_S10000x128_1_0_0_1_n_n.lhsNonContracting by decide)]
  rfl
theorem d2_rhs1 (i : S10000x128.Idx) (q : dot_S10000x10000_S10000x128_S10000x128_1_0_0_1_n_n.contr.Idx) : (dot_S10000x10000_S10000x128_S10000x128_1_0_0_1_n_n.rhsIdx i q 1).val = (i 1).val := by
  unfold DotDims.rhsIdx
  rw [dif_neg (show ¬(1 : Fin S10000x128.rank) ∈ dot_S10000x10000_S10000x128_S10000x128_1_0_0_1_n_n.rhsBatch by decide), dif_pos (show (1 : Fin S10000x128.rank) ∈ dot_S10000x10000_S10000x128_S10000x128_1_0_0_1_n_n.rhsNonContracting by decide)]
  rfl

/-- The adjacency against a feature matrix at `(r, c)`: row `r` against column `c`. -/
theorem d2_apply (a : FVec Ideal S10000x10000 .f32) (w : FVec Ideal S10000x128 .f32) (r : Fin 10000) (c : Fin 128) :
    Host.dotGeneral dot_S10000x10000_S10000x128_S10000x128_1_0_0_1_n_n none a w (ix2 r c) = ∑ k : Fin 10000, a (ix2 r k) * w (ix2 k c) := by
  simp only [Host.dotGeneral]
  rw [Ideal.dotGeneral_apply, ← Equiv.sum_comp (contrEquiv1 dot_S10000x10000_S10000x128_S10000x128_1_0_0_1_n_n 10000 rfl rfl).symm]
  refine Finset.sum_congr rfl fun k _ => ?_
  have hk := contrEquiv1_symm_val dot_S10000x10000_S10000x128_S10000x128_1_0_0_1_n_n 10000 rfl rfl k
  have el : dot_S10000x10000_S10000x128_S10000x128_1_0_0_1_n_n.lhsIdx (ix2 r c) ((contrEquiv1 dot_S10000x10000_S10000x128_S10000x128_1_0_0_1_n_n 10000 rfl rfl).symm k) = ix2 r k := funext fun ax => Fin.ext (by
    match ax with
    | ⟨0, _⟩ => exact d2_lhs0 _ _
    | ⟨1, _⟩ => exact (dot_S10000x10000_S10000x128_S10000x128_1_0_0_1_n_n.lhsIdx_val_of_single rfl _ _).trans hk)
  have er : dot_S10000x10000_S10000x128_S10000x128_1_0_0_1_n_n.rhsIdx (ix2 r c) ((contrEquiv1 dot_S10000x10000_S10000x128_S10000x128_1_0_0_1_n_n 10000 rfl rfl).symm k) = ix2 k c := funext fun ax => Fin.ext (by
    match ax with
    | ⟨0, _⟩ => exact (dot_S10000x10000_S10000x128_S10000x128_1_0_0_1_n_n.rhsIdx_val_of_single rfl _ _).trans hk
    | ⟨1, _⟩ => exact d2_rhs1 _ _)
  rw [el, er]

/-! ## Broadcasts of a vector over rows or columns -/

/-- A 10000-vector broadcast to a column and then over the 128 columns reads, at `(r, c)`, its entry `r`. -/
theorem col_apply (u : FVec Ideal S10000 .f32) (r : Fin 10000) (c : Fin 128) :
    broadcastInDim S10000x128 ![0, 1] bcast_S10000x1_S10000x128_0_1 (broadcastInDim S10000x1 ![0] bcast_S10000_S10000x1_0 u) (ix2 r c) = u (ix1 r) := by
  refine (broadcastInDim_apply _ bcast_S10000x1_S10000x128_0_1 _ (ix2 r c) (ix2 r (0 : Fin 1)) (fun a => ?_)).trans
    (broadcastInDim_apply _ bcast_S10000_S10000x1_0 u (ix2 r (0 : Fin 1)) (ix1 r) (fun a => ?_))
  · match a with
    | ⟨0, _⟩ => show r.val = if (10000 : Nat) = 1 then 0 else r.val; rw [if_neg (by decide)]
    | ⟨1, _⟩ => show 0 = if (1 : Nat) = 1 then 0 else c.val; rw [if_pos rfl]
  · match a with
    | ⟨0, _⟩ => show r.val = if (10000 : Nat) = 1 then 0 else r.val; rw [if_neg (by decide)]

/-- The same through the logarithm taken on the column. -/
theorem collog_apply (u : FVec Ideal S10000 .f32) (r : Fin 10000) (c : Fin 128) :
    broadcastInDim S10000x128 ![0, 1] bcast_S10000x1_S10000x128_0_1 (Host.log (broadcastInDim S10000x1 ![0] bcast_S10000_S10000x1_0 u)) (ix2 r c)
      = Ideal.log (u (ix1 r)) := by
  refine (broadcastInDim_apply _ bcast_S10000x1_S10000x128_0_1 _ (ix2 r c) (ix2 r (0 : Fin 1)) (fun a => ?_)).trans
    (congrArg Ideal.log (broadcastInDim_apply _ bcast_S10000_S10000x1_0 u (ix2 r (0 : Fin 1)) (ix1 r) (fun a => ?_)))
  · match a with
    | ⟨0, _⟩ => show r.val = if (10000 : Nat) = 1 then 0 else r.val; rw [if_neg (by decide)]
    | ⟨1, _⟩ => show 0 = if (1 : Nat) = 1 then 0 else c.val; rw [if_pos rfl]
  · match a with
    | ⟨0, _⟩ => show r.val = if (10000 : Nat) = 1 then 0 else r.val; rw [if_neg (by decide)]

/-- A 128-vector broadcast to a row and then down the 10000 rows reads, at `(r, c)`, its entry `c`. -/
theorem bias_apply (b : FVec Ideal S128 .f32) (r : Fin 10000) (c : Fin 128) :
    broadcastInDim S10000x128 ![0, 1] bcast_S1x128_S10000x128_0_1 (broadcastInDim S1x128 ![1] bcast_S128_S1x128_1 b) (ix2 r c) = b (ix1 c) := by
  refine (broadcastInDim_apply _ bcast_S1x128_S10000x128_0_1 _ (ix2 r c) (ix2 (0 : Fin 1) c) (fun a => ?_)).trans
    (broadcastInDim_apply _ bcast_S128_S1x128_1 b (ix2 (0 : Fin 1) c) (ix1 c) (fun a => ?_))
  · match a with
    | ⟨0, _⟩ => show 0 = if (1 : Nat) = 1 then 0 else r.val; rw [if_pos rfl]
    | ⟨1, _⟩ => show c.val = if (128 : Nat) = 1 then 0 else c.val; rw [if_neg (by decide)]
  · match a with
    | ⟨0, _⟩ => show c.val = if (128 : Nat) = 1 then 0 else c.val; rw [if_neg (by decide)]

end Cert.ReferenceIdeal.Stages

end
-- ==== Proof.RefStages.lean ====
/-
  The reference's four stages are the specification's, entry by entry, at the ideal values.

  The host's contraction of `x` against the TRANSPOSED weights reads row `c` of the weights for column `c`, which is the
  kernel's contraction of second axes; the bias reaches entry `(r, c)` through two broadcasts as its entry `c`; `relu`
  is the maximum with the word of zero. In the log-softmax the row maximum is a reduce from the word of `-inf` — a fold
  of `max` over the row's entries in any order — joined once more with `-inf`, which changes nothing (`-inf` is the
  bottom of the extended reals); the row sum is a reduce from the word of zero, which adds nothing. So each stage is
  `Cert.Gcn`'s at 10000 rows, and the whole reference is `Cert.Gcn.gcn` of its arguments.
-/
import proofs.«150236_g50663434224293_cont_8to1_c_478_4_alg».proof.Proof.RefDots
import Idealize.ShloMosaic.Lib.Pipeline.Value
import Idealize.ShloMosaic.Lib.ValueIdx
import Idealize.ShloMosaic.PureOps.Ideal.Laws

noncomputable section

open scoped BigOperators

namespace Cert.ReferenceIdeal.Stages

open Cert.ReferenceIdeal Cert.ReferenceIdeal.Gen Cert.ReferenceIdeal.Hand Cert.Gcn Idealize.ShloMosaic Idealize.ShloMosaic.ValueIdx

/-! ## The stages -/

theorem refLin_eq (x : FVec Ideal S10000x128 .f32) (W : FVec Ideal S128x128 .f32) (b : FVec Ideal S128 .f32) :
    refLin (F := Ideal) x W b = toArr (linAt (fun r k => x (ix2 r k)) W (fun j => b (ix1 j))) := by
  funext i
  obtain ⟨r, c, rfl⟩ : ∃ (r : Fin 10000) (c : Fin 128), i = ix2 r c := ⟨i 0, i 1, eq_ix2 i⟩
  rw [toArr_ix2]
  unfold refLin linAt
  refine congrArg₂ (· + ·) ((d1_apply x _ r c).trans (Finset.sum_congr rfl fun k _ => congrArg (x (ix2 r k) * ·) ?_)) (bias_apply b r c)
  exact transpose_apply [1, 0] W transposes_S128x128_S128x128_1_0 (ix2 k c) (ix2 c k) (fun bx => match bx with
    | ⟨0, _⟩ => rfl
    | ⟨1, _⟩ => rfl)

theorem refAgg_eq (A : FVec Ideal S10000x10000 .f32) (h : FVec Ideal S10000x128 .f32) :
    refAgg (F := Ideal) A h = toArr (aggAt (fun r l => A (ix2 r l)) (fun l c => h (ix2 l c))) := by
  funext i
  obtain ⟨r, c, rfl⟩ : ∃ (r : Fin 10000) (c : Fin 128), i = ix2 r c := ⟨i 0, i 1, eq_ix2 i⟩
  rw [toArr_ix2]
  unfold refAgg aggAt
  exact d2_apply A h r c

theorem refRelu_eq (h : FVec Ideal S10000x128 .f32) :
    refRelu (F := Ideal) h = toArr (reluAt (fun r c => h (ix2 r c))) := by
  funext i
  obtain ⟨r, c, rfl⟩ : ∃ (r : Fin 10000) (c : Fin 128), i = ix2 r c := ⟨i 0, i 1, eq_ix2 i⟩
  rw [toArr_ix2]
  unfold refRelu reluAt
  refine congrArg (max (h (ix2 r c)) ·) ?_
  exact broadcastInDim_apply _ bcast_S_S10000x128 (constant (F := Ideal) S_ .f32 0x00000000#32) (ix2 r c) ix0 (fun a => a.elim0)

/-- The reduce by `max` from the word of `-inf` along a row is the row's maximum. -/
theorem ref_rowmax (z : FVec Ideal S10000x128 .f32) (r : Fin 10000) :
    refRowMax (F := Ideal) z (ix1 r) = rowMax (fun r c => z (ix2 r c)) r := by
  unfold refRowMax
  refine (Host.reduce_eq_fold_single FloatOps.maximumf z _ reducesTo_S10000x128_S10000_d1 (by decide) h_S_ (ix1 r)).trans ?_
  unfold rowMax
  refine congrArg (fun f : Fin 128 → EReal => (Finset.univ : Finset (Fin 128)).fold max negInfW f) (funext fun j => ?_)
  exact congrArg z (funext fun ax => Fin.ext (by match ax with | ⟨0, _⟩ => rfl | ⟨1, _⟩ => rfl))

/-- The reduce by `+` from the word of zero along a row is the row's sum. -/
theorem ref_rowsum (e : FVec Ideal S10000x128 .f32) (r : Fin 10000) :
    refRowSum (F := Ideal) e (ix1 r) = ∑ j : Fin 128, e (ix2 r j) := by
  unfold refRowSum
  simp only [Host.reduceAdd, Ideal.hostReduceAdd_def]
  rw [Ideal.hostReduceAdd_single reducesTo_S10000x128_S10000_d1 (by decide)]
  show Ideal.ofBits .f32 0x00000000#32 + _ = _
  rw [Ideal.ofBits_zero_f32, zero_add]
  exact Finset.sum_congr rfl fun j _ => congrArg e (funext fun ax => Fin.ext (by match ax with | ⟨0, _⟩ => rfl | ⟨1, _⟩ => rfl))

-- From here on the two reductions are names: everything below uses the two lemmas above and never their definitions (a
-- fold over every index of a 10000 × 128 array).
attribute [local irreducible] refRowMax refRowSum

theorem max_negInfW (x : EReal) : max negInfW x = x := by
  rw [negInfW_eq]; exact max_eq_right bot_le

/-- A splat of the word of `-inf` over the 10000 rows reads that word at every row. -/
theorem splat_negInf (r : Fin 10000) :
    broadcastInDim S10000 ![] bcast_S_S10000 (constant (F := Ideal) S_ .f32 0xFF800000#32) (ix1 r) = negInfW :=
  broadcastInDim_apply _ bcast_S_S10000 (constant (F := Ideal) S_ .f32 0xFF800000#32) (ix1 r) ix0 (fun a => a.elim0)

/-- The row maximum joined with `-inf` is the row maximum. -/
theorem joined_rowmax (z : FVec Ideal S10000x128 .f32) (r : Fin 10000) :
    maximumf (broadcastInDim S10000 ![] bcast_S_S10000 (constant (F := Ideal) S_ .f32 0xFF800000#32)) (refRowMax (F := Ideal) z) (ix1 r)
      = rowMax (fun r c => z (ix2 r c)) r := by
  rw [maximumf_apply, splat_negInf, ref_rowmax, max_negInfW]

/-- The shifted array at `(r, c)`: the entry less its row's maximum. -/
theorem refShift_apply (z : FVec Ideal S10000x128 .f32) (r : Fin 10000) (c : Fin 128) :
    refShift (F := Ideal) z (ix2 r c) = z (ix2 r c) - rowMax (fun r c => z (ix2 r c)) r := by
  unfold refShift refShiftWith
  rw [subf_apply, col_apply, joined_rowmax]

theorem refLogSoftmax_eq (z : FVec Ideal S10000x128 .f32) :
    refLogSoftmax (F := Ideal) z = toArr (logSoftmaxAt (fun r c => z (ix2 r c))) := by
  funext i
  obtain ⟨r, c, rfl⟩ : ∃ (r : Fin 10000) (c : Fin 128), i = ix2 r c := ⟨i 0, i 1, eq_ix2 i⟩
  rw [toArr_ix2]
  unfold refLogSoftmax refTail logSoftmaxAt
  rw [subf_apply, collog_apply, ref_rowsum, refShift_apply]
  refine congrArg (fun s => z (ix2 r c) - rowMax (fun r c => z (ix2 r c)) r - Ideal.log s) (Finset.sum_congr rfl fun j _ => ?_)
  exact congrArg Ideal.exp (refShift_apply z r j)

/-! ## The stages of an array given by row and column -/

theorem refAgg_toArr (A : FVec Ideal S10000x10000 .f32) (h : Fin 10000 → Fin 128 → EReal) :
    refAgg (F := Ideal) A (toArr h) = toArr (aggAt (fun r l => A (ix2 r l)) h) := refAgg_eq A (toArr h)

theorem refRelu_toArr (h : Fin 10000 → Fin 128 → EReal) : refRelu (F := Ideal) (toArr h) = toArr (reluAt h) := refRelu_eq (toArr h)

theorem refLin_toArr (h : Fin 10000 → Fin 128 → EReal) (W : FVec Ideal S128x128 .f32) (b : FVec Ideal S128 .f32) :
    refLin (F := Ideal) (toArr h) W b = toArr (linAt h W (fun j => b (ix1 j))) := refLin_eq (toArr h) W b

theorem refLogSoftmax_toArr (z : Fin 10000 → Fin 128 → EReal) : refLogSoftmax (F := Ideal) (toArr z) = toArr (logSoftmaxAt z) :=
  refLogSoftmax_eq (toArr z)

/-- THE REFERENCE'S RESULT is the network of its arguments. -/
theorem refOut_eq (x : FVec Ideal S10000x128 .f32) (A : FVec Ideal S10000x10000 .f32) (W1 : FVec Ideal S128x128 .f32) (b1 : FVec Ideal S128 .f32)
    (W2 : FVec Ideal S128x128 .f32) (b2 : FVec Ideal S128 .f32) :
    refOut (F := Ideal) x A W1 b1 W2 b2
      = toArr (gcn (fun r k => x (ix2 r k)) (fun r l => A (ix2 r l)) W1 (fun j => b1 (ix1 j)) W2 (fun j => b2 (ix1 j))) := by
  unfold refOut gcn outAt hiddenAt
  rw [refLin_eq x W1 b1, refAgg_toArr, refRelu_toArr, refLin_toArr, refAgg_toArr, refLogSoftmax_toArr]

end Cert.ReferenceIdeal.Stages

end
-- ==== Proof.lean ====
/-
  A two-layer graph convolution with a dense adjacency, as three pallas_calls, against its jnp reference: equal at
  the ideal values.

  Both programs compute, for node features `x` (10000 × 128), an adjacency `A` (10000 × 10000), weights `W₁`, `W₂`
  (128 × 128) and biases `b₁`, `b₂`,

      out = logSoftmax ( A · ( relu ( A · (x W₁ᵀ + b₁) ) W₂ᵀ + b₂ ) ),   the log-softmax along each row,

  with the same operations in the same places: three contractions and two biased linear layers, `relu` as the maximum
  with zero, and the log-softmax in its shifted form (subtract the row maximum, then the logarithm of the row's sum of
  exponentials). The kernel tiles the ROWS: five blocks of 2000 for the first linear layer, 25 blocks of 400 for each
  pass over the adjacency; every stage's row depends on that row of its left operand only, so a block's rows are the
  whole array's. Where the two texts differ is the order in which a row's maximum and a row's sum are folded (the
  extended reals' `max` and `+` are commutative and associative), a `max` with `-inf` the reference applies once more
  (`-inf` is the bottom), a zero a sum starts from, and the transposed weight matrix the reference contracts against
  (the kernel contracts second axes). No law used needs finiteness: the precondition is not opened.

  The kernel's value is read off the generated several-regions run (KernelRun.lean, KernelValue.lean, Region0–2.lean,
  Blocks.lean); the reference's run and stages are RefRun.lean and RefStages.lean; the function both equal is
  GcnSpec.lean's `Cert.Gcn.gcn`. The ideal pass rewrote nothing, so `preserves` is `True`.
-/
import proofs.«150236_g50663434224293_cont_8to1_c_478_4_alg».proof.Defs
import proofs.«150236_g50663434224293_cont_8to1_c_478_4_alg».proof.Proof.Gen.Kernel
import proofs.«150236_g50663434224293_cont_8to1_c_478_4_alg».proof.Proof.Gen.Kernel.Skeleton
import proofs.«150236_g50663434224293_cont_8to1_c_478_4_alg».proof.Proof.Gen.Kernel.Launch
import proofs.«150236_g50663434224293_cont_8to1_c_478_4_alg».proof.Proof.Gen.Kernel.Points
import proofs.«150236_g50663434224293_cont_8to1_c_478_4_alg».proof.Proof.Gen.Kernel.Frame
import proofs.«150236_g50663434224293_cont_8to1_c_478_4_alg».proof.Proof.Gen.KernelIdeal
import proofs.«150236_g50663434224293_cont_8to1_c_478_4_alg».proof.Proof.Gen.KernelIdeal.Skeleton
import proofs.«150236_g50663434224293_cont_8to1_c_478_4_alg».proof.Proof.Gen.KernelIdeal.Launch
import proofs.«150236_g50663434224293_cont_8to1_c_478_4_alg».proof.Proof.Gen.KernelIdeal.Points
import proofs.«150236_g50663434224293_cont_8to1_c_478_4_alg».proof.Proof.Gen.KernelIdeal.Frame
import proofs.«150236_g50663434224293_cont_8to1_c_478_4_alg».proof.Proof.Gen.ReferenceIdeal
import proofs.«150236_g50663434224293_cont_8to1_c_478_4_alg».proof.Proof.Gen.Pre_finite_inputs
import proofs.«150236_g50663434224293_cont_8to1_c_478_4_alg».proof.Proof.KernelRun
import proofs.«150236_g50663434224293_cont_8to1_c_478_4_alg».proof.Proof.RefStages
import Idealize.ShloMosaic.Adequacy
import Idealize.ShloMosaic.Init

noncomputable section

namespace Cert.Proof

open Idealize.ShloMosaic Idealize.SL.Sem

/-- The word-level kernel runs and keeps its arguments: the generated frame. -/
theorem frame_kernel : Cert.frame_Kernel := fun m ρ _ => Cert.Kernel.Gen.frame m ρ

/-- So does its idealization. -/
theorem frame_ideal : Cert.frame_KernelIdeal := fun m ρ _ => Cert.KernelIdeal.Gen.frame m ρ

/-- The reference runs and keeps its arguments: its run with the result dropped. -/
theorem frame_reference : Cert.frame_ReferenceIdeal := fun m ρ _ =>
  (θ_run Cert.ReferenceIdeal.defs _ _).mono (fun _ h c => (h c).2) (Cert.ReferenceIdeal.Hand.run (F := Ideal) m ρ)

/-- From memories agreeing on the arguments both programs end with the network of those arguments in their result
    arrays: the kernel by its run read through the three calls, the reference by its run read stage by stage. -/
theorem algebraic : Cert.algebraic_KernelIdeal_ReferenceIdeal := by
  intro m ρ m' ρ' _ hagree
  refine ⟨_, Cert.KernelIdeal.Whole.run m ρ, ?_⟩
  refine (θ_run Cert.ReferenceIdeal.defs _ _).mono (fun _ h c => ⟨(h c).1.trans ?_, (h c).2⟩)
    (Cert.ReferenceIdeal.Hand.run (F := Ideal) m' ρ')
  rw [Cert.ReferenceIdeal.Stages.refOut_eq, (hagree c).1, (hagree c).2.1, (hagree c).2.2.1, (hagree c).2.2.2.1,
    (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_ideal, frame_reference, trivial, algebraic⟩

end Cert.Proof

end
